-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_h_bw" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x64x64 : Shape := ⟨4, ![4, 256, 64, 64]⟩
abbrev S_ : Shape := ⟨0, ![]⟩

class Facts : Prop where
  bcast_S_S4x256x64x64 : S_.BroadcastsInDim S4x256x64x64 (![] : Fin 0 → Fin S4x256x64x64.rank)
  reducesTo_S4x256x64x64_S_d0_1_2_3 : S4x256x64x64.ReducesTo [0, 1, 2, 3] S_
  h_S_ : 0 < S_.numel

variable [Facts]

def fn {F : FTy → Type} [FloatOps F] (main_arg0 : FVec F S4x256x64x64 .f32) (main_arg1 : FVec F S4x256x64x64 .f32) : IVec S_ 1 :=
  let main_v0 : FVec F S4x256x64x64 .f32 := Host.absf main_arg0
  let main_cst : FVec F S_ .f32 := constant S_ .f32 0x7F800000#32
  let main_v1 : FVec F S4x256x64x64 .f32 := broadcastInDim S4x256x64x64 ![] bcast_S_S4x256x64x64 main_cst
  let main_v2 : IVec S4x256x64x64 1 := cmpf .olt main_v0 main_v1
  let main_c : IVec S_ 1 := constantI S_ 1 1#1
  let main_v3 : IVec S_ 1 := (fun x v => Host.reduce IntOp.andi x v reducesTo_S4x256x64x64_S_d0_1_2_3 h_S_) main_v2 main_c
  let main_v4 : FVec F S4x256x64x64 .f32 := Host.absf main_arg1
  let main_cst_0 : FVec F S_ .f32 := constant S_ .f32 0x7F800000#32
  let main_v5 : FVec F S4x256x64x64 .f32 := broadcastInDim S4x256x64x64 ![] bcast_S_S4x256x64x64 main_cst_0
  let main_v6 : IVec S4x256x64x64 1 := cmpf .olt main_v4 main_v5
  let main_c_1 : IVec S_ 1 := constantI S_ 1 1#1
  let main_v7 : IVec S_ 1 := (fun x v => Host.reduce IntOp.andi x v reducesTo_S4x256x64x64_S_d0_1_2_3 h_S_) main_v6 main_c_1
  let main_v8 : IVec S_ 1 := andi main_v3 main_v7
  main_v8
-- ==== Kernel.lean ====
abbrev S4x256x64x64 : Shape := ⟨4, ![4, 256, 64, 64]⟩
abbrev S_ : Shape := ⟨0, ![]⟩
abbrev S4x64x64 : Shape := ⟨3, ![4, 64, 64]⟩
abbrev S4x1x64x64 : Shape := ⟨4, ![4, 1, 64, 64]⟩
abbrev S4x256x4096 : Shape := ⟨3, ![4, 256, 4096]⟩
abbrev S4x4096x256 : Shape := ⟨3, ![4, 4096, 256]⟩
abbrev S4x4096x1 : Shape := ⟨3, ![4, 4096, 1]⟩
abbrev S1x256x256 : Shape := ⟨3, ![1, 256, 256]⟩
abbrev S1x4096x256 : Shape := ⟨3, ![1, 4096, 256]⟩
abbrev S1x256x1 : Shape := ⟨3, ![1, 256, 1]⟩
abbrev S256x256 : Shape := ⟨2, ![256, 256]⟩
abbrev S4096x256 : Shape := ⟨2, ![4096, 256]⟩
abbrev S256x4096 : Shape := ⟨2, ![256, 4096]⟩
abbrev S256 : Shape := ⟨1, ![256]⟩
abbrev S256x1 : Shape := ⟨2, ![256, 1]⟩
abbrev S4x4096 : Shape := ⟨2, ![4, 4096]⟩
abbrev S4 : Shape := ⟨1, ![4]⟩

abbrev nBuf : Space → Nat
  | .hbm => 51
  | .vmem => 6
  | .smem => 0
  | _ => 0

abbrev bufTy : (tb : Table) → Fin (tcTables nBuf tb) → BufTy
  | .hbm, ⟨0, _⟩ => ⟨S4x256x64x64, .f32⟩
  | .hbm, ⟨1, _⟩ => ⟨S4x256x64x64, .f32⟩
  | .hbm, ⟨2, _⟩ => ⟨S_, .f32⟩
  | .hbm, ⟨3, _⟩ => ⟨S4x64x64, .f32⟩
  | .hbm, ⟨4, _⟩ => ⟨S4x1x64x64, .f32⟩
  | .hbm, ⟨5, _⟩ => ⟨S_, .f32⟩
  | .hbm, ⟨6, _⟩ => ⟨S4x1x64x64, .f32⟩
  | .hbm, ⟨7, _⟩ => ⟨S4x1x64x64, .f32⟩
  | .hbm, ⟨8, _⟩ => ⟨S4x256x64x64, .f32⟩
  | .hbm, ⟨9, _⟩ => ⟨S4x256x64x64, .f32⟩
  | .hbm, ⟨10, _⟩ => ⟨S4x256x64x64, .f32⟩
  | .hbm, ⟨11, _⟩ => ⟨S4x256x64x64, .f32⟩
  | .hbm, ⟨12, _⟩ => ⟨S4x256x64x64, .f32⟩
  | .hbm, ⟨13, _⟩ => ⟨S_, .f32⟩
  | .hbm, ⟨14, _⟩ => ⟨S4x64x64, .f32⟩
  | .hbm, ⟨15, _⟩ => ⟨S4x1x64x64, .f32⟩
  | .hbm, ⟨16, _⟩ => ⟨S4x1x64x64, .f32⟩
  | .hbm, ⟨17, _⟩ => ⟨S_, .f32⟩
  | .hbm, ⟨18, _⟩ => ⟨S4x1x64x64, .f32⟩
  | .hbm, ⟨19, _⟩ => ⟨S4x1x64x64, .f32⟩
  | .hbm, ⟨20, _⟩ => ⟨S4x256x64x64, .f32⟩
  | .hbm, ⟨21, _⟩ => ⟨S4x256x64x64, .f32⟩
  | .hbm, ⟨22, _⟩ => ⟨S4x256x4096, .f32⟩
  | .hbm, ⟨23, _⟩ => ⟨S4x256x64x64, .f32⟩
  | .hbm, ⟨24, _⟩ => ⟨S_, .f32⟩
  | .hbm, ⟨25, _⟩ => ⟨S4x64x64, .f32⟩
  | .hbm, ⟨26, _⟩ => ⟨S4x1x64x64, .f32⟩
  | .hbm, ⟨27, _⟩ => ⟨S4x1x64x64, .f32⟩
  | .hbm, ⟨28, _⟩ => ⟨S_, .f32⟩
  | .hbm, ⟨29, _⟩ => ⟨S4x1x64x64, .f32⟩
  | .hbm, ⟨30, _⟩ => ⟨S4x1x64x64, .f32⟩
  | .hbm, ⟨31, _⟩ => ⟨S4x256x64x64, .f32⟩
  | .hbm, ⟨32, _⟩ => ⟨S4x256x64x64, .f32⟩
  | .hbm, ⟨33, _⟩ => ⟨S4x256x4096, .f32⟩
  | .hbm, ⟨34, _⟩ => ⟨S4x4096x256, .f32⟩
  | .hbm, ⟨35, _⟩ => ⟨S4x4096x256, .bf16⟩
  | .hbm, ⟨36, _⟩ => ⟨S4x4096x256, .f32⟩
  | .hbm, ⟨37, _⟩ => ⟨S4x4096x256, .bf16⟩
  | .hbm, ⟨38, _⟩ => ⟨S4x4096x1, .f32⟩
  | .hbm, ⟨39, _⟩ => ⟨S4x4096, .f32⟩
  | .hbm, ⟨40, _⟩ => ⟨S_, .f32⟩
  | .hbm, ⟨41, _⟩ => ⟨S4, .f32⟩
  | .hbm, ⟨42, _⟩ => ⟨S_, .f32⟩
  | .hbm, ⟨43, _⟩ => ⟨S4, .f32⟩
  | .hbm, ⟨44, _⟩ => ⟨S4, .f32⟩
  | .hbm, ⟨45, _⟩ => ⟨S4, .f32⟩
  | .hbm, ⟨46, _⟩ => ⟨S4, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .local _ .vmem, ⟨0, _⟩ => ⟨S1x256x256, .bf16⟩
  | .local _ .vmem, ⟨1, _⟩ => ⟨S1x256x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x256x1, .f32⟩
  | .local _ .vmem, ⟨5, _⟩ => ⟨S1x256x1, .f32⟩
  | _, _ => ⟨S4x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_5 : Ref sig .tc := ⟨.hbm, 40, rfl⟩
abbrev main_v32 : Ref sig .tc := ⟨.hbm, 41, rfl⟩
abbrev main_cst_6 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_7 : Ref sig .tc := ⟨.hbm, 47, rfl⟩
abbrev main_v37 : Ref sig .tc := ⟨.hbm, 48, rfl⟩
abbrev main_cst_8 : Ref sig .tc := ⟨.hbm, 49, rfl⟩
abbrev main_v38 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  reducesTo_S4x256x64x64_S4x64x64_d1 : S4x256x64x64.ReducesTo [1] S4x64x64
  h_S_ : 0 < S_.numel
  bcast_S4x64x64_S4x1x64x64_0_2_3 : S4x64x64.BroadcastsInDim S4x1x64x64 (![0, 2, 3] : Fin 3 → Fin S4x1x64x64.rank)
  bcast_S_S4x1x64x64 : S_.BroadcastsInDim S4x1x64x64 (![] : Fin 0 → Fin S4x1x64x64.rank)
  bcast_S4x1x64x64_S4x256x64x64_0_1_2_3 : S4x1x64x64.BroadcastsInDim S4x256x64x64 (![0, 1, 2, 3] : Fin 4 → Fin S4x256x64x64.rank)
  shapeCasts_S4x256x64x64_S4x256x4096 : S4x256x64x64.ShapeCasts S4x256x4096
  transposes_S4x256x4096_S4x4096x256_0_2_1 : S4x256x4096.Transposes [0, 2, 1] S4x4096x256
  bitsLt_bf16_f32 : FTy.bits .bf16 < FTy.bits .f32
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  reduces_S256x4096_S256 : S256x4096.Reduces [1] S256
  shapeCasts_S256_S256x1 : S256.ShapeCasts S256x1
  broadcasts_S256x1_S256x4096 : S256x1.Broadcasts S256x4096
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  shapeCasts_S4x4096x1_S4x4096 : S4x4096x1.ShapeCasts S4x4096
  reducesTo_S4x4096_S4_d1 : S4x4096.ReducesTo [1] S4
  bcast_S_S4 : S_.BroadcastsInDim S4 (![] : Fin 0 → Fin S4.rank)
  reducesTo_S4_S_d0 : S4.ReducesTo [0] S_
  dot_S256x256_S4096x256_S256x4096_1_1_0_0_n_n_wf : DotDims.WF S256x256 S4096x256 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x256.size a ≤ S4x4096x256.size a
  hwx0_0 : ∀ i : grid0.Coords, EltTy.bits .bf16 = 32 ∨ (Rect.block (s := S4x4096x256) S1x256x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x256.size a ≤ S4x4096x256.size a
  hwx0_1 : ∀ i : grid0.Coords, EltTy.bits .bf16 = 32 ∨ (Rect.block (s := S4x4096x256) S1x4096x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S4x4096x1.size a
  hwx0_2 : ∀ i : grid0.Coords, EltTy.bits .f32 = 32 ∨ (Rect.block (s := S4x4096x1) S1x256x1.size (cc0_transform_2 i) (hinb0_2 i)).WholeWords (EltTy.packing .f32)

variable [Facts₀]

def dot_S256x256_S4096x256_S256x4096_1_1_0_0_n_n : DotDims S256x256 S4096x256 S256x4096 where
  lhsContracting := [1]
  rhsContracting := [1]
  lhsNonContracting := [0]
  rhsNonContracting := [0]
  lhsBatch := []
  rhsBatch := []
  wf := dot_S256x256_S4096x256_S256x4096_1_1_0_0_n_n_wf

abbrev win0_0 : Pipeline.Window sig grid0 :=
  Pipeline.Window.ofSpec (Memref.whole main_v27) S1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S1x4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x256x64x64 : Shape := ⟨4, ![4, 256, 64, 64]⟩
abbrev S_ : Shape := ⟨0, ![]⟩
abbrev S4x64x64 : Shape := ⟨3, ![4, 64, 64]⟩
abbrev S4x1x64x64 : Shape := ⟨4, ![4, 1, 64, 64]⟩
abbrev S4x256x4096 : Shape := ⟨3, ![4, 256, 4096]⟩
abbrev S4x4096x4096 : Shape := ⟨3, ![4, 4096, 4096]⟩
abbrev S4x4096 : Shape := ⟨2, ![4, 4096]⟩
abbrev S4x4096x1 : Shape := ⟨3, ![4, 4096, 1]⟩
abbrev S4 : Shape := ⟨1, ![4]⟩

abbrev nBuf : Space → Nat
  | .hbm => 71
  | .vmem => 0
  | .smem => 0
  | _ => 0

abbrev bufTy : (tb : Table) → Fin (tcTables nBuf tb) → BufTy
  | .hbm, ⟨0, _⟩ => ⟨S4x256x64x64, .f32⟩
  | .hbm, ⟨1, _⟩ => ⟨S4x256x64x64, .f32⟩
  | .hbm, ⟨2, _⟩ => ⟨S_, .f32⟩
  | .hbm, ⟨3, _⟩ => ⟨S4x64x64, .f32⟩
  | .hbm, ⟨4, _⟩ => ⟨S4x1x64x64, .f32⟩
  | .hbm, ⟨5, _⟩ => ⟨S_, .f32⟩
  | .hbm, ⟨6, _⟩ => ⟨S4x1x64x64, .f32⟩
  | .hbm, ⟨7, _⟩ => ⟨S4x1x64x64, .f32⟩
  | .hbm, ⟨8, _⟩ => ⟨S4x256x64x64, .f32⟩
  | .hbm, ⟨9, _⟩ => ⟨S4x256x64x64, .f32⟩
  | .hbm, ⟨10, _⟩ => ⟨S4x256x64x64, .f32⟩
  | .hbm, ⟨11, _⟩ => ⟨S4x256x64x64, .f32⟩
  | .hbm, ⟨12, _⟩ => ⟨S4x256x64x64, .f32⟩
  | .hbm, ⟨13, _⟩ => ⟨S_, .f32⟩
  | .hbm, ⟨14, _⟩ => ⟨S4x64x64, .f32⟩
  | .hbm, ⟨15, _⟩ => ⟨S4x1x64x64, .f32⟩
  | .hbm, ⟨16, _⟩ => ⟨S4x1x64x64, .f32⟩
  | .hbm, ⟨17, _⟩ => ⟨S_, .f32⟩
  | .hbm, ⟨18, _⟩ => ⟨S4x1x64x64, .f32⟩
  | .hbm, ⟨19, _⟩ => ⟨S4x1x64x64, .f32⟩
  | .hbm, ⟨20, _⟩ => ⟨S4x256x64x64, .f32⟩
  | .hbm, ⟨21, _⟩ => ⟨S4x256x64x64, .f32⟩
  | .hbm, ⟨22, _⟩ => ⟨S4x256x4096, .f32⟩
  | .hbm, ⟨23, _⟩ => ⟨S4x256x64x64, .f32⟩
  | .hbm, ⟨24, _⟩ => ⟨S_, .f32⟩
  | .hbm, ⟨25, _⟩ => ⟨S4x64x64, .f32⟩
  | .hbm, ⟨26, _⟩ => ⟨S4x1x64x64, .f32⟩
  | .hbm, ⟨27, _⟩ => ⟨S4x1x64x64, .f32⟩
  | .hbm, ⟨28, _⟩ => ⟨S_, .f32⟩
  | .hbm, ⟨29, _⟩ => ⟨S4x1x64x64, .f32⟩
  | .hbm, ⟨30, _⟩ => ⟨S4x1x64x64, .f32⟩
  | .hbm, ⟨31, _⟩ => ⟨S4x256x64x64, .f32⟩
  | .hbm, ⟨32, _⟩ => ⟨S4x256x64x64, .f32⟩
  | .hbm, ⟨33, _⟩ => ⟨S4x256x4096, .f32⟩
  | .hbm, ⟨34, _⟩ => ⟨S4x4096x4096, .f32⟩
  | .hbm, ⟨35, _⟩ => ⟨S_, .f32⟩
  | .hbm, ⟨36, _⟩ => ⟨S4x4096x4096, .f32⟩
  | .hbm, ⟨37, _⟩ => ⟨S4x4096x4096, .f32⟩
  | .hbm, ⟨38, _⟩ => ⟨S_, .f32⟩
  | .hbm, ⟨39, _⟩ => ⟨S4x4096, .f32⟩
  | .hbm, ⟨40, _⟩ => ⟨S4x4096x1, .f32⟩
  | .hbm, ⟨41, _⟩ => ⟨S_, .f32⟩
  | .hbm, ⟨42, _⟩ => ⟨S4x4096x1, .f32⟩
  | .hbm, ⟨43, _⟩ => ⟨S4x4096x1, .f32⟩
  | .hbm, ⟨44, _⟩ => ⟨S4x4096x4096, .f32⟩
  | .hbm, ⟨45, _⟩ => ⟨S4x4096x4096, .f32⟩
  | .hbm, ⟨46, _⟩ => ⟨S_, .f32⟩
  | .hbm, ⟨47, _⟩ => ⟨S4x4096x4096, .f32⟩
  | .hbm, ⟨48, _⟩ => ⟨S4x4096x4096, .f32⟩
  | .hbm, ⟨49, _⟩ => ⟨S_, .f32⟩
  | .hbm, ⟨50, _⟩ => ⟨S4x4096x4096, .f32⟩
  | .hbm, ⟨51, _⟩ => ⟨S4x4096x4096, .f32⟩
  | .hbm, ⟨52, _⟩ => ⟨S4x4096x4096, .f32⟩
  | .hbm, ⟨53, _⟩ => ⟨S_, .f32⟩
  | .hbm, ⟨54, _⟩ => ⟨S4x4096, .f32⟩
  | .hbm, ⟨55, _⟩ => ⟨S4x4096x1, .f32⟩
  | .hbm, ⟨56, _⟩ => ⟨S4x4096x4096, .f32⟩
  | .hbm, ⟨57, _⟩ => ⟨S4x4096x4096, .f32⟩
  | .hbm, ⟨58, _⟩ => ⟨S_, .f32⟩
  | .hbm, ⟨59, _⟩ => ⟨S4x4096, .f32⟩
  | .hbm, ⟨60, _⟩ => ⟨S_, .f32⟩
  | .hbm, ⟨61, _⟩ => ⟨S4, .f32⟩
  | .hbm, ⟨62, _⟩ => ⟨S_, .f32⟩
  | .hbm, ⟨63, _⟩ => ⟨S4, .f32⟩
  | .hbm, ⟨64, _⟩ => ⟨S4, .f32⟩
  | .hbm, ⟨65, _⟩ => ⟨S4, .f32⟩
  | .hbm, ⟨66, _⟩ => ⟨S4, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | _, _ => ⟨S4x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_5 : Ref sig .tc := ⟨.hbm, 35, rfl⟩
abbrev main_v27 : Ref sig .tc := ⟨.hbm, 36, rfl⟩
abbrev main_v28 : Ref sig .tc := ⟨.hbm, 37, rfl⟩
abbrev main_cst_6 : Ref sig .tc := ⟨.hbm, 38, rfl⟩
abbrev main_v29 : Ref sig .tc := ⟨.hbm, 39, rfl⟩
abbrev main_v30 : Ref sig .tc := ⟨.hbm, 40, rfl⟩
abbrev main_cst_7 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_8 : Ref sig .tc := ⟨.hbm, 46, rfl⟩
abbrev main_v35 : Ref sig .tc := ⟨.hbm, 47, rfl⟩
abbrev main_v36 : Ref sig .tc := ⟨.hbm, 48, rfl⟩
abbrev main_cst_9 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_10 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_11 : Ref sig .tc := ⟨.hbm, 58, rfl⟩
abbrev main_v44 : Ref sig .tc := ⟨.hbm, 59, rfl⟩
abbrev main_cst_12 : Ref sig .tc := ⟨.hbm, 60, rfl⟩
abbrev main_v45 : Ref sig .tc := ⟨.hbm, 61, rfl⟩
abbrev main_cst_13 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_14 : Ref sig .tc := ⟨.hbm, 67, rfl⟩
abbrev main_v50 : Ref sig .tc := ⟨.hbm, 68, rfl⟩
abbrev main_cst_15 : Ref sig .tc := ⟨.hbm, 69, rfl⟩
abbrev main_v51 : Ref sig .tc := ⟨.hbm, 70, rfl⟩

abbrev nD : Nat := 1
abbrev τ : Topo := Topo.v7x

variable {F : FTy → Type} [FloatOps F]

class Facts₀ : Prop where
  reducesTo_S4x256x64x64_S4x64x64_d1 : S4x256x64x64.ReducesTo [1] S4x64x64
  h_S_ : 0 < S_.numel
  bcast_S4x64x64_S4x1x64x64_0_2_3 : S4x64x64.BroadcastsInDim S4x1x64x64 (![0, 2, 3] : Fin 3 → Fin S4x1x64x64.rank)
  bcast_S_S4x1x64x64 : S_.BroadcastsInDim S4x1x64x64 (![] : Fin 0 → Fin S4x1x64x64.rank)
  bcast_S4x1x64x64_S4x256x64x64_0_1_2_3 : S4x1x64x64.BroadcastsInDim S4x256x64x64 (![0, 1, 2, 3] : Fin 4 → Fin S4x256x64x64.rank)
  shapeCasts_S4x256x64x64_S4x256x4096 : S4x256x64x64.ShapeCasts S4x256x4096
  bcast_S_S4x4096x4096 : S_.BroadcastsInDim S4x4096x4096 (![] : Fin 0 → Fin S4x4096x4096.rank)
  reducesTo_S4x4096x4096_S4x4096_d2 : S4x4096x4096.ReducesTo [2] S4x4096
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x4096_0_1_2 : S4x4096x1.BroadcastsInDim S4x4096x4096 (![0, 1, 2] : Fin 3 → Fin S4x4096x4096.rank)
  reducesTo_S4x4096_S4_d1 : S4x4096.ReducesTo [1] S4
  bcast_S_S4 : S_.BroadcastsInDim S4 (![] : Fin 0 → Fin S4.rank)
  reducesTo_S4_S_d0 : S4.ReducesTo [0] S_
  dot_S4x256x4096_S4x256x4096_S4x4096x4096_1_1_2_2_0_0_wf : DotDims.WF S4x256x4096 S4x256x4096 S4x4096x4096 [1] [1] [2] [2] [0] [0]

variable [Facts₀]

def dot_S4x256x4096_S4x256x4096_S4x4096x4096_1_1_2_2_0_0 : DotDims S4x256x4096 S4x256x4096 S4x4096x4096 where
  lhsContracting := [1]
  rhsContracting := [1]
  lhsNonContracting := [2]
  rhsNonContracting := [2]
  lhsBatch := [0]
  rhsBatch := [0]
  wf := dot_S4x256x4096_S4x256x4096_S4x4096x4096_1_1_2_2_0_0_wf

class Facts : Prop extends Facts₀ where

variable [Facts]
-- ==== Proof.RowLaw.lean ====
/-
  The law of one row, and two bounds on sums of products — no program is imported here.

  One row of similarities s_j (j over the keys), all real and at most 1.  The reference forms the distances 1 - s_j, their
  least value, the quotient of each distance by (that least value + c), the weights exp((1 - quotient) / D), and returns the
  largest weight after each weight is divided by the sum of all of them.  The kernel forms the largest similarity M, the weights
  exp((s_j - M) · (K / ((1 - M) + c))), and returns the largest weight divided by the sum of the weights.  With K = 1/D the
  reference's weight is the kernel's times the positive number exp(c / (((1 - M) + c) · D)), the same for every key of the row,
  and that factor cancels between the largest weight and the sum.  The divisor (1 - M) + c is positive because M ≤ 1.
-/
import Idealize.ShloMosaic.PureOps.Ideal

noncomputable section

open scoped BigOperators

namespace Cert.RowLaw

open Idealize.ShloMosaic

/-- The reference's value of one row of similarities `s`. -/
def refRow {m : ℕ} (one c D : EReal) (s : Fin m → EReal) : EReal :=
  (Finset.univ : Finset (Fin m)).fold max ⊥ (fun j =>
    Ideal.div
      (Ideal.exp (Ideal.div (one - Ideal.div (one - s j)
        ((Finset.univ : Finset (Fin m)).fold min ⊤ (fun j' => one - s j') + c)) D))
      (0 + ∑ k : Fin m, Ideal.exp (Ideal.div (one - Ideal.div (one - s k)
        ((Finset.univ : Finset (Fin m)).fold min ⊤ (fun j' => one - s j') + c)) D)))

/-- The kernel's value of one row of similarities `s`. -/
def kerRow {m : ℕ} (one c K : EReal) (s : Fin m → EReal) : EReal :=
  Ideal.div
    ((Finset.univ : Finset (Fin m)).fold max ⊥ (fun j =>
      Ideal.exp ((s j - (Finset.univ : Finset (Fin m)).fold max ⊥ s)
        * Ideal.div K ((one - (Finset.univ : Finset (Fin m)).fold max ⊥ s) + c))))
    (∑ k : Fin m, Ideal.exp ((s k - (Finset.univ : Finset (Fin m)).fold max ⊥ s)
        * Ideal.div K ((one - (Finset.univ : Finset (Fin m)).fold max ⊥ s) + c)))

/-- The coercion of the reals into the extended reals commutes with a finite sum. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Over a nonempty finite set, the largest of a family of reals, formed in the extended reals from ⊥, is the real
    largest value. -/
theorem fold_max_coe {ι : Type} (s : Finset ι) (h : s.Nonempty) (f : ι → ℝ) :
    s.fold max ⊥ (fun j => (f j : EReal)) = ((s.sup' h f : ℝ) : EReal) := by
  apply le_antisymm
  · rw [Finset.fold_max_le]
    exact ⟨bot_le, fun x hx => EReal.coe_le_coe_iff.2 (Finset.le_sup' f hx)⟩
  · obtain ⟨j, hj, hje⟩ := Finset.exists_mem_eq_sup' h f
    rw [hje, Finset.le_fold_max]
    exact Or.inr ⟨j, hj, le_rfl⟩

/-- Over a nonempty finite set, the least of a family of reals, formed in the extended reals from ⊤, is the real
    least value. -/
theorem fold_min_coe {ι : Type} (s : Finset ι) (h : s.Nonempty) (f : ι → ℝ) :
    s.fold min ⊤ (fun j => (f j : EReal)) = ((s.inf' h f : ℝ) : EReal) := by
  apply le_antisymm
  · obtain ⟨j, hj, hje⟩ := Finset.exists_mem_eq_inf' h f
    rw [hje, Finset.fold_min_le]
    exact Or.inr ⟨j, hj, le_rfl⟩
  · rw [Finset.le_fold_min]
    exact ⟨le_top, fun x hx => EReal.coe_le_coe_iff.2 (Finset.inf'_le f hx)⟩

/-- The least of the distances 1 - s_j is 1 minus the largest similarity. -/
theorem inf'_one_sub {ι : Type} (s : Finset ι) (h : s.Nonempty) (f : ι → ℝ) :
    s.inf' h (fun j => 1 - f j) = 1 - s.sup' h f := by
  apply le_antisymm
  · obtain ⟨j, hj, hje⟩ := Finset.exists_mem_eq_sup' h f
    rw [hje]
    exact Finset.inf'_le (fun j => 1 - f j) hj
  · apply Finset.le_inf'
    intro k hk
    have := Finset.le_sup' f hk
    linarith

/-- The reference's weight of one key is the exponential of a real: the divisions by the nonzero reals `den` and `D`
    are products with their reciprocals. -/
theorem ref_weight (x den D : ℝ) (hden : den ≠ 0) (hD : D ≠ 0) :
    Ideal.exp (Ideal.div ((1 : EReal) - Ideal.div ((1 : EReal) - (x : EReal)) (den : EReal)) (D : EReal))
      = ((Real.exp ((1 - (1 - x) * (1 / den)) * (1 / D)) : ℝ) : EReal) := by
  rw [Ideal.div_coe hden, Ideal.div_coe hD, ← EReal.coe_one, ← EReal.coe_sub, ← EReal.coe_mul, ← EReal.coe_sub,
    ← EReal.coe_mul, Ideal.exp_coe]

/-- The kernel's weight of one key is the exponential of a real. -/
theorem ker_weight (x M K den : ℝ) (hden : den ≠ 0) :
    Ideal.exp (((x : EReal) - (M : EReal)) * Ideal.div (K : EReal) (den : EReal))
      = ((Real.exp ((x - M) * (K * (1 / den))) : ℝ) : EReal) := by
  rw [Ideal.div_coe hden, ← EReal.coe_sub, ← EReal.coe_mul, ← EReal.coe_mul, Ideal.exp_coe]

/-- The reference's value of a nonempty row of reals is a real: the largest, over the keys, of the weight divided by
    the sum of the weights, with `M` the largest similarity and the divisor `(1 - M) + c` nonzero. -/
theorem refRow_coe {m : ℕ} (hne : (Finset.univ : Finset (Fin m)).Nonempty) (σ : Fin m → ℝ) (c D : ℝ)
    (hden : (1 - Finset.univ.sup' hne σ) + c ≠ 0) (hD : D ≠ 0) :
    refRow (1 : EReal) (c : EReal) (D : EReal) (fun j => (σ j : EReal))
      = ((Finset.univ.sup' hne (fun j =>
          Real.exp ((1 - (1 - σ j) * (1 / ((1 - Finset.univ.sup' hne σ) + c))) * (1 / D))
            * (1 / ∑ k, Real.exp ((1 - (1 - σ k) * (1 / ((1 - Finset.univ.sup' hne σ) + c))) * (1 / D)))) : ℝ)
          : EReal) := by
  have hmin : (Finset.univ : Finset (Fin m)).fold min ⊤ (fun j' => (1 : EReal) - (σ j' : EReal))
      = ((1 - Finset.univ.sup' hne σ : ℝ) : EReal) := by
    have h1 : (fun j' : Fin m => (1 : EReal) - (σ j' : EReal)) = fun j' => ((1 - σ j' : ℝ) : EReal) := by
      funext j'
      rw [EReal.coe_sub, EReal.coe_one]
    rw [h1, fold_min_coe _ hne, inf'_one_sub]
  have hS : (∑ k, Real.exp ((1 - (1 - σ k) * (1 / ((1 - Finset.univ.sup' hne σ) + c))) * (1 / D))) ≠ 0 :=
    (Finset.sum_pos (fun k _ => Real.exp_pos _) hne).ne'
  simp only [refRow]
  rw [hmin, ← EReal.coe_add]
  simp only [ref_weight _ _ _ hden hD]
  rw [zero_add, ← coe_sum]
  simp only [Ideal.div_coe hS, ← EReal.coe_mul]
  rw [fold_max_coe _ hne]

/-- The kernel's value of a nonempty row of reals is a real: the largest weight divided by the sum of the weights. -/
theorem kerRow_coe {m : ℕ} (hne : (Finset.univ : Finset (Fin m)).Nonempty) (σ : Fin m → ℝ) (c K : ℝ)
    (hden : (1 - Finset.univ.sup' hne σ) + c ≠ 0) :
    kerRow (1 : EReal) (c : EReal) (K : EReal) (fun j => (σ j : EReal))
      = ((Finset.univ.sup' hne (fun j =>
            Real.exp ((σ j - Finset.univ.sup' hne σ) * (K * (1 / ((1 - Finset.univ.sup' hne σ) + c)))))
          * (1 / ∑ k, Real.exp ((σ k - Finset.univ.sup' hne σ) * (K * (1 / ((1 - Finset.univ.sup' hne σ) + c))))) : ℝ)
          : EReal) := by
  have hS : (∑ k, Real.exp ((σ k - Finset.univ.sup' hne σ) * (K * (1 / ((1 - Finset.univ.sup' hne σ) + c))))) ≠ 0 :=
    (Finset.sum_pos (fun k _ => Real.exp_pos _) hne).ne'
  simp only [kerRow]
  rw [fold_max_coe _ hne σ, ← EReal.coe_one, ← EReal.coe_sub, ← EReal.coe_add]
  simp only [ker_weight _ _ _ _ hden]
  rw [fold_max_coe _ hne, ← coe_sum, Ideal.div_coe hS, ← EReal.coe_mul]

/-- Over the reals: the reference's weight is the kernel's times exp (c / (den · D)), the same for every key, and the
    factor cancels between each weight and the sum; dividing by the positive sum commutes with taking the largest. -/
theorem real_row_law {ι : Type} (s : Finset ι) (hne : s.Nonempty) (σ : ι → ℝ) (M c D : ℝ)
    (hden : 0 < (1 - M) + c) (hD : 0 < D) :
    s.sup' hne (fun j =>
        Real.exp ((1 - (1 - σ j) * (1 / ((1 - M) + c))) * (1 / D))
          * (1 / ∑ k ∈ s, Real.exp ((1 - (1 - σ k) * (1 / ((1 - M) + c))) * (1 / D))))
      = s.sup' hne (fun j => Real.exp ((σ j - M) * (1 / D * (1 / ((1 - M) + c)))))
          * (1 / ∑ k ∈ s, Real.exp ((σ k - M) * (1 / D * (1 / ((1 - M) + c))))) := by
  have hden0 : (1 - M) + c ≠ 0 := hden.ne'
  have hD0 : D ≠ 0 := hD.ne'
  have hw : ∀ j, Real.exp ((1 - (1 - σ j) * (1 / ((1 - M) + c))) * (1 / D))
      = Real.exp ((σ j - M) * (1 / D * (1 / ((1 - M) + c)))) * Real.exp (c / (((1 - M) + c) * D)) := by
    intro j
    rw [← Real.exp_add]
    congr 1
    field_simp
    ring
  have hC : Real.exp (c / (((1 - M) + c) * D)) ≠ 0 := (Real.exp_pos _).ne'
  have hS : 0 < ∑ k ∈ s, Real.exp ((σ k - M) * (1 / D * (1 / ((1 - M) + c)))) :=
    Finset.sum_pos (fun k _ => Real.exp_pos _) hne
  simp only [hw]
  rw [← Finset.sum_mul, Finset.sup'_mul₀ (by positivity)]
  congr 1
  funext j
  field_simp

/-- The two agree on a nonempty row of reals none of which exceeds 1, when `K = 1/D`, `c > 0`, `D > 0`. -/
theorem row_law {m : ℕ} (hm : 0 < m) (σ : Fin m → ℝ) (hσ : ∀ j, σ j ≤ 1) (c D : ℝ) (hc : 0 < c) (hD : 0 < D) :
    refRow (1 : EReal) (c : EReal) (D : EReal) (fun j => (σ j : EReal))
      = kerRow (1 : EReal) (c : EReal) ((1 / D : ℝ) : EReal) (fun j => (σ j : EReal)) := by
  have hne : (Finset.univ : Finset (Fin m)).Nonempty := ⟨⟨0, hm⟩, Finset.mem_univ _⟩
  have hM1 : Finset.univ.sup' hne σ ≤ 1 := Finset.sup'_le hne σ (fun j _ => hσ j)
  have hden : 0 < (1 - Finset.univ.sup' hne σ) + c := by linarith
  rw [refRow_coe hne σ c D hden.ne' hD.ne', kerRow_coe hne σ c (1 / D) hden.ne',
    real_row_law Finset.univ hne σ (Finset.univ.sup' hne σ) c D hden hD]

/-- A sum of products of two families whose squares each sum to at most 1 is at most 1 (from 2ab ≤ a² + b²). -/
theorem dot_le_one {n : ℕ} (a b : Fin n → ℝ) (ha : ∑ k, a k ^ 2 ≤ 1) (hb : ∑ k, b k ^ 2 ≤ 1) :
    ∑ k, a k * b k ≤ 1 := by
  have h : ∑ k, a k * b k ≤ ∑ k, (a k ^ 2 + b k ^ 2) / 2 := by
    apply Finset.sum_le_sum
    intro k _
    nlinarith [sq_nonneg (a k - b k)]
  rw [← Finset.sum_div, Finset.sum_add_distrib] at h
  linarith

/-- A family divided by (its Euclidean length + ε), ε > 0, has squares summing to at most 1. -/
theorem normalized_sq_sum_le_one {n : ℕ} (u : Fin n → ℝ) (ε : ℝ) (hε : 0 < ε) :
    ∑ k, (u k / (Real.sqrt (∑ j, u j * u j) + ε)) ^ 2 ≤ 1 := by
  have hS : 0 ≤ ∑ j, u j * u j := Finset.sum_nonneg (fun j _ => mul_self_nonneg (u j))
  have hN : 0 ≤ Real.sqrt (∑ j, u j * u j) := Real.sqrt_nonneg _
  have hNN : Real.sqrt (∑ j, u j * u j) ^ 2 = ∑ j, u j * u j := Real.sq_sqrt hS
  have hpos : 0 < (Real.sqrt (∑ j, u j * u j) + ε) ^ 2 := by positivity
  have hterm : ∀ k, (u k / (Real.sqrt (∑ j, u j * u j) + ε)) ^ 2
      = (u k * u k) / (Real.sqrt (∑ j, u j * u j) + ε) ^ 2 := by
    intro k
    rw [div_pow, sq (u k)]
  rw [Finset.sum_congr rfl (fun k _ => hterm k), ← Finset.sum_div, div_le_one hpos]
  nlinarith [hNN, mul_nonneg hN hε.le, sq_nonneg ε]

end Cert.RowLaw

end
-- ==== Proof.Consts.lean ====
/-
  The float constants the two programs spell, as the extended reals their bit patterns denote.

  0.0 is 0, 1.0 is 1, 256.0 is 256, the two infinities are the top and the bottom of the extended reals, the single-precision
  0.001 is the dyadic 8589935 / 2³³, the single-precision 0.1 is the dyadic 13421773 / 2²⁷, and the small number added to a
  length before dividing by it is 2⁻⁵².
-/
import Idealize.ShloMosaic.PureOps.Ideal

noncomputable section

namespace Cert.Consts

open Idealize.ShloMosaic

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_posInf : Ideal.ofBits .f32 0x7F800000#32 = ⊤ := by
  simp [Ideal.ofBits, Ideal.ieee]

theorem ofBits_negInf : Ideal.ofBits .f32 0xFF800000#32 = ⊥ := by
  simp [Ideal.ofBits, Ideal.ieee]

/-- The single-precision 0.001. -/
theorem ofBits_milli : Ideal.ofBits .f32 0x3A83126F#32 = ((8589935 / 8589934592 : ℝ) : EReal) := by
  simp [Ideal.ofBits, Ideal.ieee, -EReal.coe_mul]; norm_num

/-- The single-precision 0.1. -/
theorem ofBits_tenth : Ideal.ofBits .f32 0x3DCCCCCD#32 = ((13421773 / 134217728 : ℝ) : EReal) := by
  simp [Ideal.ofBits, Ideal.ieee, -EReal.coe_mul]; norm_num

/-- 256.0, the number of channels. -/
theorem ofBits_256 : Ideal.ofBits .f32 0x43800000#32 = ((256 : ℝ) : EReal) := by
  simp [Ideal.ofBits, Ideal.ieee, -EReal.coe_mul]; norm_num

/-- 2⁻⁵², the number added to a length before dividing by it. -/
theorem ofBits_twoPowNeg52 : Ideal.ofBits .f32 0x25800000#32 = ((1 / 4503599627370496 : ℝ) : EReal) := by
  simp [Ideal.ofBits, Ideal.ieee, -EReal.coe_mul]; norm_num

end Cert.Consts

end
-- ==== Proof.LibRowMax.lean ====
/-
  The largest entry of each row of a matrix, read at an index — general in the extents.

  Over the extended reals the maximum of an `n × m` matrix along its second axis reads, at `p`, the fold of `max`, from the
  accumulator's value, over the entries `(p, k)` of row `p`: `max` is commutative and associative, so the order in which the
  row is folded does not matter.
-/
import Idealize.ShloMosaic.Lib.ValueIdx
import Idealize.ShloMosaic.PureOps.Ideal.Laws

noncomputable section

namespace Cert.LibRowMax

open Idealize.ShloMosaic Idealize.ShloMosaic.ValueIdx

/-- Over the extended reals the maximum of an `n × m` matrix along its second axis reads, at `p`, the fold of `max` from the
    accumulator's value over `k` of the entries `(p, k)`. -/
theorem rowMax_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.maximumf.neutral φ hφ)
    (p : Fin n) :
    multiReduction .maximumf [1] ⟨1, ![n]⟩ src acc h hφ hacc (ix1 p)
      = (Finset.univ : Finset (Fin m)).fold max (Ideal.ofBits φ acc) (fun k : Fin m => src (ix2 p k)) := by
  refine (Ideal.multiReduction_maximumf_single src acc h hφ hacc (ix1 p)).trans ?_
  have hf : (src ∘ h.lift (ix1 p)) = fun k : Fin m => src (ix2 p k) := funext fun k => congrArg src
    (funext fun c => Fin.ext (by match c with | ⟨0, _⟩ => rfl | ⟨1, _⟩ => rfl))
  exact congrArg (fun f => Finset.fold max (Ideal.ofBits φ acc) f (Finset.univ : Finset (Fin m))) hf

end Cert.LibRowMax

end
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.LibDotRows.lean ====
/-
  A reusable general lemma: a matrix product that contracts the COLUMNS of both operands, read at an entry.

  The product of an `n` × `K` matrix `l` with the transpose of an `M` × `K` matrix `r` (`l @ r.T`, a linear layer
  whose weight matrix is stored one row per output feature) pairs row `p` of `l` with row `c` of `r`. Its dimension
  numbers index the sum by the contraction shape's positions; when that shape has the one axis of extent `K` and the
  two operand indices at output entry (p, c) and contraction position `k` are (p, k) and (c, k) — four coordinate
  facts a program's literal dimension numbers decide — the sum is `∑ k : Fin K, l (p, k) · r (c, k)`. On the extended
  reals this reads a vector unit's matrix product into a zero accumulator. Stated at any extents.
-/
import Idealize.ShloMosaic.Lib.ValueIdx
import Idealize.ShloMosaic.PureOps.Ideal.Laws

noncomputable section

open scoped BigOperators

namespace Idealize.ShloMosaic.DotRows

open Idealize.ShloMosaic Idealize.ShloMosaic.ValueIdx

/-- The contraction's sum, re-indexed by the one contracted coordinate. -/
theorem sum_contr_eq {n K M : Nat} (D : DotDims (⟨2, ![n, K]⟩ : Shape) (⟨2, ![M, K]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (i 1).val)
    (r1 : ∀ (i : (⟨2, ![n, M]⟩ : Shape).Idx) (q : D.contr.Idx), (D.rhsIdx i q 1).val = (q ⟨0, by omega⟩).val)
    (l : (⟨2, ![n, K]⟩ : Shape).Idx → EReal) (r : (⟨2, ![M, K]⟩ : Shape).Idx → EReal) (p : Fin n) (c : Fin M) :
    ∑ q : D.contr.Idx, l (D.lhsIdx (ix2 p c) q) * r (D.rhsIdx (ix2 p c) q) = ∑ k : Fin K, l (ix2 p k) * r (ix2 c k) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 c k := funext fun a => Fin.ext (by
    match a with
    | ⟨0, _⟩ => exact r0 _ _
    | ⟨1, _⟩ => exact (r1 _ _).trans hk)
  rw [el, er]

/-- A vector unit's matrix product into the zero accumulator, at entry (p, c): `∑ k, lhs (p, k) · rhs (c, k)`. -/
theorem matmul_zero_apply {n K M : Nat} {φ₁ φ₂ : FTy}
    (D : DotDims (⟨2, ![n, K]⟩ : Shape) (⟨2, ![M, K]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (i 1).val)
    (r1 : ∀ (i : (⟨2, ![n, M]⟩ : Shape).Idx) (q : D.contr.Idx), (D.rhsIdx i q 1).val = (q ⟨0, by omega⟩).val)
    (prec : Option ContractPrecision) (lhs : FVec Ideal (⟨2, ![n, K]⟩ : Shape) φ₁) (rhs : FVec Ideal (⟨2, ![M, K]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 c k) : EReal) :=
  (Ideal.matmul_constant_zero_apply D prec lhs rhs (ix2 p c)).trans (sum_contr_eq D hr hs l0 l1 r0 r1 lhs rhs p c)

end Idealize.ShloMosaic.DotRows

end
-- ==== Proof.KerRows.lean ====
/-
  The kernel body's stored value, one row at a time.

  A grid point holds a 256-row slab x of queries and the whole 4096-row slab y of keys of one batch, both with 256
  channels.  The body forms the similarities s[r,j] = ∑ₖ x[r,k] · y[j,k], the largest M_r over j, the scale (1/D)/((1 - M_r) +
  0.001) with the named constant 1/D, the weights exp((s[r,j] - M_r) · scale), and stores, for row r, the largest weight
  over j divided by the sum over j of the weights: `RowLaw.kerRow` of the row s[r,·].
-/
import proofs.«120261_j39960375722308_2_alg».proof.Proof.Gen.KernelIdeal.Skeleton
import proofs.«120261_j39960375722308_2_alg».proof.Proof.RowLaw
import proofs.«120261_j39960375722308_2_alg».proof.Proof.Consts
import proofs.«120261_j39960375722308_2_alg».proof.Proof.LibRowMax
import proofs.«120261_j39960375722308_2_alg».proof.Proof.LibColumns
import proofs.«120261_j39960375722308_2_alg».proof.Proof.LibDotRows
import Idealize.ShloMosaic.Lib.ValueIdx
import Idealize.ShloMosaic.Lib.ValueLayout
import Idealize.ShloMosaic.Lib.Pipeline.Value
import Idealize.ShloMosaic.PureOps.IdealRules

noncomputable section

open scoped BigOperators

namespace Cert.KerRows

open Idealize.ShloMosaic Idealize.ShloMosaic.ValueIdx Cert.KernelIdeal
open Cert.KernelIdeal.Facts₀ Cert.KernelIdeal.Facts

variable [Cert.KernelIdeal.Facts]

/-- The kernel's named scale constant denotes 1/D, D the single-precision 0.1, by the certificate's table. -/
theorem inv_h_bw : Named.named (F := Ideal) Cert.KernelIdeal.κ "inv_h_bw" (φ := .f32) 0x41200000#32
    = ((134217728 / 13421773 : ℝ) : EReal) :=
  IdealRules.named_const.ideal_named_scalar _ _ _ _ rfl

/-- The similarities of a slab of queries and a slab of keys: row r against row j over the channels. -/
theorem sims_at (x : FVec Ideal S1x256x256 .bf16) (y : FVec Ideal S1x4096x256 .bf16) (r : Fin 256) (j : Fin 4096) :
    (matmul (F := Ideal) dot_S256x256_S4096x256_S256x4096_1_1_0_0_n_n none
        (shapeCast S256x256 x shapeCasts_S1x256x256_S256x256) (shapeCast S4096x256 y shapeCasts_S1x4096x256_S4096x256)
        (constant S256x4096 .f32 0x00000000#32) (ix2 r j) : EReal)
      = ∑ k : Fin 256, (x (ix3 (0 : Fin 1) r k) : EReal) * (y (ix3 (0 : Fin 1) j k) : EReal) := by
  refine (Idealize.ShloMosaic.DotRows.matmul_zero_apply (n := 256) (K := 256) (M := 4096)
    dot_S256x256_S4096x256_S256x4096_1_1_0_0_n_n rfl rfl ?_ ?_ ?_ ?_ none _ _ r j).trans ?_
  · intro i q
    unfold DotDims.lhsIdx
    rw [dif_neg (show ¬(0 : Fin S256x256.rank) ∈ dot_S256x256_S4096x256_S256x4096_1_1_0_0_n_n.lhsBatch by decide),
      dif_pos (show (0 : Fin S256x256.rank) ∈ dot_S256x256_S4096x256_S256x4096_1_1_0_0_n_n.lhsNonContracting by decide)]
    rfl
  · intro i q
    exact dot_S256x256_S4096x256_S256x4096_1_1_0_0_n_n.lhsIdx_val_of_single rfl i q
  · intro i q
    unfold DotDims.rhsIdx
    rw [dif_neg (show ¬(0 : Fin S4096x256.rank) ∈ dot_S256x256_S4096x256_S256x4096_1_1_0_0_n_n.rhsBatch by decide),
      dif_pos (show (0 : Fin S4096x256.rank) ∈ dot_S256x256_S4096x256_S256x4096_1_1_0_0_n_n.rhsNonContracting by decide)]
    rfl
  · intro i q
    exact dot_S256x256_S4096x256_S256x4096_1_1_0_0_n_n.rhsIdx_val_of_single rfl i q
  · refine Finset.sum_congr rfl fun k _ => ?_
    rw [shapeCast_1ab_ab_apply, shapeCast_1ab_ab_apply]

/-- The largest entry of each row of a 256 × 4096 matrix, as a column. -/
def rowMaxCol (v : FVec Ideal S256x4096 .f32) : FVec Ideal S256x1 .f32 :=
  shapeCast S256x1 (multiReduction .maximumf [1] S256 v 0xFF800000#32 reduces_S256x4096_S256 (.inl rfl) rfl) shapeCasts_S256_S256x1

/-- The sum of each row of a 256 × 4096 matrix, as a column. -/
def rowSumCol (v : FVec Ideal S256x4096 .f32) : FVec Ideal S256x1 .f32 :=
  shapeCast S256x1 (multiReduction .add [1] S256 v 0x00000000#32 reduces_S256x4096_S256 (.inl rfl) rfl) shapeCasts_S256_S256x1

/-- The scale of each row from the column of row maxima: the named constant over ((1 - maximum) + 0.001). -/
def scaleCol (v6 : FVec Ideal S256x1 .f32) : FVec Ideal S256x1 .f32 :=
  divf (broadcast S256x1 (Named.named (F := Ideal) κ "inv_h_bw" (φ := .f32) 0x41200000#32))
    (addf (subf (broadcast S256x1 (Scalar.ofBits (F := Ideal) .f32 0x3F800000#32)) v6)
      (broadcast S256x1 (Scalar.ofBits (F := Ideal) .f32 0x3A83126F#32)))

/-- The weights: exp((similarity - row maximum) · row scale). -/
def weights (v4 : FVec Ideal S256x4096 .f32) (v6 v12 : FVec Ideal S256x1 .f32) : FVec Ideal S256x4096 .f32 :=
  exp (mulf (subf v4 (broadcastTo S256x4096 v6 broadcasts_S256x1_S256x4096)) (broadcastTo S256x4096 v12 broadcasts_S256x1_S256x4096))

/-- Everything the body computes after the product, as a function of the matrix of similarities. -/
def afterSims (v4 : FVec Ideal S256x4096 .f32) : FVec Ideal S1x256x1 .f32 :=
  shapeCast S1x256x1
    (divf (rowMaxCol (weights v4 (rowMaxCol v4) (scaleCol (rowMaxCol v4))))
      (rowSumCol (weights v4 (rowMaxCol v4) (scaleCol (rowMaxCol v4)))))
    shapeCasts_S256x1_S1x256x1

/-- The body's stored value is that function of the product of its two slabs. -/
theorem pay_eq (x : Vec Ideal S1x256x256 .bf16) (y : Vec Ideal S1x4096x256 .bf16) :
    Gen.k0_pay1 (F := Ideal) x y
      = afterSims (matmul (F := Ideal) (φ₁ := .bf16) (φ₂ := .bf16) dot_S256x256_S4096x256_S256x4096_1_1_0_0_n_n none
          (shapeCast S256x256 x shapeCasts_S1x256x256_S256x256) (shapeCast S4096x256 y shapeCasts_S1x4096x256_S4096x256)
          (constant S256x4096 .f32 0x00000000#32)) := rfl

theorem rowMaxCol_at (v : FVec Ideal S256x4096 .f32) (r : Fin 256) (z : Fin 1) :
    rowMaxCol v (ix2 r z) = (Finset.univ : Finset (Fin 4096)).fold max ⊥ (fun j => v (ix2 r j)) := by
  unfold rowMaxCol
  rw [Cert.LibColumns.shapeCast_a_a1_apply]
  exact (Cert.LibRowMax.rowMax_apply (n := 256) (m := 4096) v _ _ _ _ r).trans (by rw [Cert.Consts.ofBits_negInf])

theorem rowSumCol_at (v : FVec Ideal S256x4096 .f32) (r : Fin 256) (z : Fin 1) :
    rowSumCol v (ix2 r z) = ∑ j : Fin 4096, v (ix2 r j) := by
  unfold rowSumCol
  rw [Cert.LibColumns.shapeCast_a_a1_apply]
  exact Cert.LibColumns.rowSum_apply (n := 256) (m := 4096) v _ _ _ _ r

theorem scaleCol_at (v6 : FVec Ideal S256x1 .f32) (i : S256x1.Idx) :
    scaleCol v6 i = Ideal.div ((134217728 / 13421773 : ℝ) : EReal)
      ((Ideal.ofBits .f32 0x3F800000#32 - v6 i) + Ideal.ofBits .f32 0x3A83126F#32) := by
  show Ideal.div (Named.named (F := Ideal) κ "inv_h_bw" (φ := .f32) 0x41200000#32) _ = _
  rw [inv_h_bw]
  rfl

theorem weights_at (v4 : FVec Ideal S256x4096 .f32) (v6 v12 : FVec Ideal S256x1 .f32) (r : Fin 256) (j : Fin 4096) :
    weights v4 v6 v12 (ix2 r j) = Ideal.exp ((v4 (ix2 r j) - v6 (ix2 r (0 : Fin 1))) * v12 (ix2 r (0 : Fin 1))) := by
  show Ideal.exp ((v4 (ix2 r j) - broadcastTo S256x4096 v6 broadcasts_S256x1_S256x4096 (ix2 r j))
    * broadcastTo S256x4096 v12 broadcasts_S256x1_S256x4096 (ix2 r j)) = _
  rw [Cert.LibColumns.broadcastTo_a1_ab_apply, Cert.LibColumns.broadcastTo_a1_ab_apply]

/-- Row `r` of what the body stores is `kerRow` of row `r` of the similarities. -/
theorem afterSims_at (v4 : FVec Ideal S256x4096 .f32) (r : Fin 256) :
    afterSims v4 (ix3 (0 : Fin 1) r (0 : Fin 1))
      = Cert.RowLaw.kerRow (Ideal.ofBits .f32 0x3F800000#32) (Ideal.ofBits .f32 0x3A83126F#32)
          ((134217728 / 13421773 : ℝ) : EReal) (fun j => v4 (ix2 r j)) := by
  have hw : ∀ j : Fin 4096, weights v4 (rowMaxCol v4) (scaleCol (rowMaxCol v4)) (ix2 r j)
      = Ideal.exp ((v4 (ix2 r j) - (Finset.univ : Finset (Fin 4096)).fold max ⊥ (fun j' => v4 (ix2 r j')))
          * Ideal.div ((134217728 / 13421773 : ℝ) : EReal)
              ((Ideal.ofBits .f32 0x3F800000#32 - (Finset.univ : Finset (Fin 4096)).fold max ⊥ (fun j' => v4 (ix2 r j')))
                + Ideal.ofBits .f32 0x3A83126F#32)) := fun j => by
    rw [weights_at, scaleCol_at, rowMaxCol_at]
  unfold afterSims Cert.RowLaw.kerRow
  rw [shapeCast_ab_1ab_apply]
  show Ideal.div (rowMaxCol _ (ix2 r (0 : Fin 1))) (rowSumCol _ (ix2 r (0 : Fin 1))) = _
  rw [rowMaxCol_at, rowSumCol_at]
  simp only [hw]

/-- Row `r` of what the body stores, from its two slabs. -/
theorem pay_row (x : Vec Ideal S1x256x256 .bf16) (y : Vec Ideal S1x4096x256 .bf16) (r : Fin 256) :
    Gen.k0_pay1 (F := Ideal) x y (ix3 (0 : Fin 1) r (0 : Fin 1))
      = Cert.RowLaw.kerRow (Ideal.ofBits .f32 0x3F800000#32) (Ideal.ofBits .f32 0x3A83126F#32)
          ((134217728 / 13421773 : ℝ) : EReal)
          (fun j => ∑ k : Fin 256, (x (ix3 (0 : Fin 1) r k) : EReal) * (y (ix3 (0 : Fin 1) j k) : EReal)) := by
  rw [pay_eq, afterSims_at]
  exact congrArg _ (funext fun j => sims_at x y r j)

end Cert.KerRows

end
-- ==== Proof.Prefix.lean ====
/-
  The two normalised feature arrays the reference builds before its product: every entry is a real number, and the squares of
  the 256 channel entries at one batch and one position sum to at most 1.

  At batch b, channel k and position (h, w) the left array holds (X[b,k,h,w] - mean) / (length + ε), where mean is the sum
  over the channels of Y[b,·,h,w] divided by 256, length is the square root of the sum over the channels of the squares of
  (X[b,·,h,w] - mean), and ε = 2⁻⁵² > 0; the right array holds the same with Y in place of X.  For finite inputs the mean, the
  differences, the sum of squares (≥ 0), its root and the divisor length + ε (> 0) are reals, so every entry is a real, and a
  family of reals divided by (its length + ε) has squares summing to at most 1.  The reshape to [4, 256, 4096] reads position
  i as (i / 64, i % 64).
-/
import proofs.«120261_j39960375722308_2_alg».proof.Proof.Gen.ReferenceIdeal.Read
import proofs.«120261_j39960375722308_2_alg».proof.Pre_finite_inputs
import proofs.«120261_j39960375722308_2_alg».proof.Proof.RowLaw
import proofs.«120261_j39960375722308_2_alg».proof.Proof.Consts
import Idealize.ShloMosaic.Lib.ReduceAll
import Idealize.ShloMosaic.Lib.ValueIdx
import Idealize.ShloMosaic.Lib.Pipeline.Value

noncomputable section

open scoped BigOperators

namespace Cert.Prefix

open Idealize.ShloMosaic Idealize.ShloMosaic.ValueIdx Cert.ReferenceIdeal Cert.ReferenceIdeal.Gen

/-- Every entry of an array of extended reals is a real. -/
def AllReal {S : Shape} (x : S.Idx → EReal) : Prop := ∀ i, ∃ r : ℝ, x i = (r : EReal)

/-! ### The four float constants of the prefix, as the extended reals their patterns denote -/

/-- The pattern of `+0.0` denotes `0`. -/
theorem ofBits_zero : Ideal.ofBits .f32 0x00000000#32 = 0 := Cert.Consts.ofBits_zero

/-- The pattern of `256.0` denotes the real `256`. -/
theorem ofBits_256 : Ideal.ofBits .f32 0x43800000#32 = ((256 : ℝ) : EReal) := Cert.Consts.ofBits_256

/-- ε = 2⁻⁵², the number added to each length before the division. -/
def eps : ℝ := 1 / 4503599627370496

/-- ε is positive. -/
theorem eps_pos : 0 < eps := by unfold eps; norm_num

/-- The pattern `0x25800000` denotes ε = 2⁻⁵². -/
theorem ofBits_eps : Ideal.ofBits .f32 0x25800000#32 = ((eps : ℝ) : EReal) := Cert.Consts.ofBits_twoPowNeg52

/-- The pattern of `+inf` denotes `⊤`. -/
theorem ofBits_inf : Ideal.ofBits .f32 0x7F800000#32 = ⊤ := Cert.Consts.ofBits_posInf

/-! ### The precondition, decoded -/

/-- An extended real whose absolute value max x (-x) is below ⊤ is a real: at ⊥ and at ⊤ that maximum is ⊤. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- The precondition "every entry of both inputs is finite", decoded. -/
theorem allReal_of_pre [Cert.Pre_finite_inputs.Facts]
    (x0 x1 : FVec Ideal Cert.Pre_finite_inputs.S4x256x64x64 .f32)
    (h : Cert.Pre_finite_inputs.fn (F := Ideal) x0 x1 = fun _ => 1#1) : AllReal x0 ∧ AllReal x1 := by
  haveI : Subsingleton Cert.Pre_finite_inputs.S_.Idx := ⟨fun a b => funext fun d => d.elim0⟩
  have h' := congrFun h ValueIdx.ix0
  dsimp only [Cert.Pre_finite_inputs.fn] at h'
  obtain ⟨ha, hb⟩ := IntOp.andi_eq_one.1 h'
  refine ⟨fun i => ?_, fun i => ?_⟩
  · have e := Host.reduce_andi_all _ _ _ _ _ ha i
    apply real_of_abs_lt_top
    rw [← ofBits_inf]
    exact e
  · have e := Host.reduce_andi_all _ _ _ _ _ hb i
    apply real_of_abs_lt_top
    rw [← ofBits_inf]
    exact e

/-! ### The arrays of the prefix at one index, for real inputs -/

section Entries

variable [Cert.ReferenceIdeal.Facts]

/-- The mean over the channels of `Y` at batch `b` and position `(h, w)`. -/
def mean (Y : S4x256x64x64.Idx → ℝ) (b : Fin 4) (h w : Fin 64) : ℝ := (∑ k : Fin 256, Y (ix4 b k h w)) / 256

/-- The differences `Z[b,k,h,w] - mean` over the channels `k`, the mean being that of `Y`. -/
def dev (Z Y : S4x256x64x64.Idx → ℝ) (b : Fin 4) (h w : Fin 64) (k : Fin 256) : ℝ := Z (ix4 b k h w) - mean Y b h w

/-- The sum of the squares of the differences is not negative. -/
theorem sumsq_nonneg (u : Fin 256 → ℝ) : 0 ≤ ∑ k, u k * u k := Finset.sum_nonneg (fun k _ => mul_self_nonneg (u k))

/-- The divisor length + ε is not zero. -/
theorem len_add_eps_ne (u : Fin 256 → ℝ) : Real.sqrt (∑ k, u k * u k) + eps ≠ 0 :=
  ne_of_gt (add_pos_of_nonneg_of_pos (Real.sqrt_nonneg _) eps_pos)

/-- The mean array (%3) at `(b, 0, h, w)` is the real mean of `Y` over the channels. -/
theorem v3_at (x1 : (⟨S4x256x64x64, .f32⟩ : BufTy).Contents (Elt Ideal)) (Y : S4x256x64x64.Idx → ℝ)
    (hY : ∀ i, x1 i = (Y i : EReal)) (b : Fin 4) (h w : Fin 64) :
    Read.val_main_v3 (F := Ideal) x1 (ix4 b (0 : Fin 1) h w) = (mean Y b h w : EReal) := by
  rw [Read.val_main_v3_apply, Read.val_main_v1_apply, Read.val_main_v0_apply, Read.val_main_v2_apply,
    Read.val_main_cst_0_apply, Read.val_main_cst_apply]
  simp only [Ideal.hostDivf_def, Ideal.ofBits_def, ofBits_zero, ofBits_256, zero_add]
  rw [Ideal.div_coe (by norm_num)]
  have hs : (∑ k : Fin 256, x1 (Read.idx_main_v0 (Read.idx_main_v1 (ix4 b (0 : Fin 1) h w)) k))
      = ((∑ k : Fin 256, Y (ix4 b k h w) : ℝ) : EReal) := by
    rw [Cert.RowLaw.coe_sum]
    refine Finset.sum_congr rfl fun k _ => ?_
    rw [hY]
    exact congrArg (fun j => (Y j : EReal)) (funext fun a => Fin.ext (by
      match a with | ⟨0, _⟩ => rfl | ⟨1, _⟩ => rfl | ⟨2, _⟩ => rfl | ⟨3, _⟩ => rfl))
  rw [hs, ← EReal.coe_mul, mean, mul_one_div]

/-- The left differences (%5) at `(b, k, h, w)`. -/
theorem v5_at (x0 x1 : (⟨S4x256x64x64, .f32⟩ : BufTy).Contents (Elt Ideal)) (X Y : S4x256x64x64.Idx → ℝ)
    (hX : ∀ i, x0 i = (X i : EReal)) (hY : ∀ i, x1 i = (Y i : EReal)) (b : Fin 4) (k : Fin 256) (h w : Fin 64) :
    Read.val_main_v5 (F := Ideal) x0 x1 (ix4 b k h w) = (dev X Y b h w k : EReal) := by
  rw [Read.val_main_v5_apply, Read.val_main_v4_apply]
  have hi : Read.idx_main_v4 (ix4 b k h w) = ix4 b (0 : Fin 1) h w := funext fun a => Fin.ext (by
    match a with | ⟨0, _⟩ => rfl | ⟨1, _⟩ => rfl | ⟨2, _⟩ => rfl | ⟨3, _⟩ => rfl)
  rw [hi, v3_at x1 Y hY, hX, Ideal.subf_def, ← EReal.coe_sub, dev]

/-- The right differences (%7) at `(b, k, h, w)`. -/
theorem v7_at (x1 : (⟨S4x256x64x64, .f32⟩ : BufTy).Contents (Elt Ideal)) (Y : S4x256x64x64.Idx → ℝ)
    (hY : ∀ i, x1 i = (Y i : EReal)) (b : Fin 4) (k : Fin 256) (h w : Fin 64) :
    Read.val_main_v7 (F := Ideal) x1 (ix4 b k h w) = (dev Y Y b h w k : EReal) := by
  rw [Read.val_main_v7_apply, Read.val_main_v6_apply]
  have hi : Read.idx_main_v6 (ix4 b k h w) = ix4 b (0 : Fin 1) h w := funext fun a => Fin.ext (by
    match a with | ⟨0, _⟩ => rfl | ⟨1, _⟩ => rfl | ⟨2, _⟩ => rfl | ⟨3, _⟩ => rfl)
  rw [hi, v3_at x1 Y hY, hY, Ideal.subf_def, ← EReal.coe_sub, dev]

/-- The left sum of squares (%9) at `(b, h, w)`. -/
theorem v9_at (x0 x1 : (⟨S4x256x64x64, .f32⟩ : BufTy).Contents (Elt Ideal)) (X Y : S4x256x64x64.Idx → ℝ)
    (hX : ∀ i, x0 i = (X i : EReal)) (hY : ∀ i, x1 i = (Y i : EReal)) (b : Fin 4) (h w : Fin 64) :
    Read.val_main_v9 (F := Ideal) x0 x1 (ix3 b h w) = ((∑ k, dev X Y b h w k * dev X Y b h w k : ℝ) : EReal) := by
  rw [Read.val_main_v9_apply, Read.val_main_cst_1_apply]
  simp only [Ideal.ofBits_def, ofBits_zero, zero_add]
  rw [Cert.RowLaw.coe_sum]
  refine Finset.sum_congr rfl fun k _ => ?_
  have hi : Read.idx_main_v9 (ix3 b h w) k = ix4 b k h w := funext fun a => Fin.ext (by
    match a with | ⟨0, _⟩ => rfl | ⟨1, _⟩ => rfl | ⟨2, _⟩ => rfl | ⟨3, _⟩ => rfl)
  rw [hi, Read.val_main_v8_apply, v5_at x0 x1 X Y hX hY, Ideal.mulf_def, ← EReal.coe_mul]

/-- The right sum of squares (%18) at `(b, h, w)`. -/
theorem v18_at (x1 : (⟨S4x256x64x64, .f32⟩ : BufTy).Contents (Elt Ideal)) (Y : S4x256x64x64.Idx → ℝ)
    (hY : ∀ i, x1 i = (Y i : EReal)) (b : Fin 4) (h w : Fin 64) :
    Read.val_main_v18 (F := Ideal) x1 (ix3 b h w) = ((∑ k, dev Y Y b h w k * dev Y Y b h w k : ℝ) : EReal) := by
  rw [Read.val_main_v18_apply, Read.val_main_cst_3_apply]
  simp only [Ideal.ofBits_def, ofBits_zero, zero_add]
  rw [Cert.RowLaw.coe_sum]
  refine Finset.sum_congr rfl fun k _ => ?_
  have hi : Read.idx_main_v18 (ix3 b h w) k = ix4 b k h w := funext fun a => Fin.ext (by
    match a with | ⟨0, _⟩ => rfl | ⟨1, _⟩ => rfl | ⟨2, _⟩ => rfl | ⟨3, _⟩ => rfl)
  rw [hi, Read.val_main_v17_apply, v7_at x1 Y hY, Ideal.mulf_def, ← EReal.coe_mul]

/-- The left divisor length + ε (%13) at `(b, 0, h, w)`. -/
theorem v13_at (x0 x1 : (⟨S4x256x64x64, .f32⟩ : BufTy).Contents (Elt Ideal)) (X Y : S4x256x64x64.Idx → ℝ)
    (hX : ∀ i, x0 i = (X i : EReal)) (hY : ∀ i, x1 i = (Y i : EReal)) (b : Fin 4) (h w : Fin 64) :
    Read.val_main_v13 (F := Ideal) x0 x1 (ix4 b (0 : Fin 1) h w)
      = ((Real.sqrt (∑ k, dev X Y b h w k * dev X Y b h w k) + eps : ℝ) : EReal) := by
  rw [Read.val_main_v13_apply, Read.val_main_v11_apply, Read.val_main_v10_apply, Read.val_main_v12_apply,
    Read.val_main_cst_2_apply]
  have hi : Read.idx_main_v10 (ix4 b (0 : Fin 1) h w) = ix3 b h w := funext fun a => Fin.ext (by
    match a with | ⟨0, _⟩ => rfl | ⟨1, _⟩ => rfl | ⟨2, _⟩ => rfl)
  rw [hi, v9_at x0 x1 X Y hX hY]
  simp only [Ideal.hostUnary_sqrt_def, Ideal.sqrt_coe, Ideal.addf_def, Ideal.ofBits_def, ofBits_eps]
  rw [if_neg (not_lt.2 (sumsq_nonneg _)), ← EReal.coe_add]

/-- The right divisor length + ε (%22) at `(b, 0, h, w)`. -/
theorem v22_at (x1 : (⟨S4x256x64x64, .f32⟩ : BufTy).Contents (Elt Ideal)) (Y : S4x256x64x64.Idx → ℝ)
    (hY : ∀ i, x1 i = (Y i : EReal)) (b : Fin 4) (h w : Fin 64) :
    Read.val_main_v22 (F := Ideal) x1 (ix4 b (0 : Fin 1) h w)
      = ((Real.sqrt (∑ k, dev Y Y b h w k * dev Y Y b h w k) + eps : ℝ) : EReal) := by
  rw [Read.val_main_v22_apply, Read.val_main_v20_apply, Read.val_main_v19_apply, Read.val_main_v21_apply,
    Read.val_main_cst_4_apply]
  have hi : Read.idx_main_v19 (ix4 b (0 : Fin 1) h w) = ix3 b h w := funext fun a => Fin.ext (by
    match a with | ⟨0, _⟩ => rfl | ⟨1, _⟩ => rfl | ⟨2, _⟩ => rfl)
  rw [hi, v18_at x1 Y hY]
  simp only [Ideal.hostUnary_sqrt_def, Ideal.sqrt_coe, Ideal.addf_def, Ideal.ofBits_def, ofBits_eps]
  rw [if_neg (not_lt.2 (sumsq_nonneg _)), ← EReal.coe_add]

/-- The left quotient (%15) at `(b, k, h, w)`. -/
theorem v15_at (x0 x1 : (⟨S4x256x64x64, .f32⟩ : BufTy).Contents (Elt Ideal)) (X Y : S4x256x64x64.Idx → ℝ)
    (hX : ∀ i, x0 i = (X i : EReal)) (hY : ∀ i, x1 i = (Y i : EReal)) (b : Fin 4) (k : Fin 256) (h w : Fin 64) :
    Read.val_main_v15 (F := Ideal) x0 x1 (ix4 b k h w)
      = ((dev X Y b h w k / (Real.sqrt (∑ j, dev X Y b h w j * dev X Y b h w j) + eps) : ℝ) : EReal) := by
  rw [Read.val_main_v15_apply, Read.val_main_v14_apply]
  have hi : Read.idx_main_v14 (ix4 b k h w) = ix4 b (0 : Fin 1) h w := funext fun a => Fin.ext (by
    match a with | ⟨0, _⟩ => rfl | ⟨1, _⟩ => rfl | ⟨2, _⟩ => rfl | ⟨3, _⟩ => rfl)
  rw [hi, v13_at x0 x1 X Y hX hY, v5_at x0 x1 X Y hX hY, Ideal.hostDivf_def,
    Ideal.div_coe (len_add_eps_ne _), ← EReal.coe_mul, ← div_eq_mul_one_div]

/-- The right quotient (%24) at `(b, k, h, w)`. -/
theorem v24_at (x1 : (⟨S4x256x64x64, .f32⟩ : BufTy).Contents (Elt Ideal)) (Y : S4x256x64x64.Idx → ℝ)
    (hY : ∀ i, x1 i = (Y i : EReal)) (b : Fin 4) (k : Fin 256) (h w : Fin 64) :
    Read.val_main_v24 (F := Ideal) x1 (ix4 b k h w)
      = ((dev Y Y b h w k / (Real.sqrt (∑ j, dev Y Y b h w j * dev Y Y b h w j) + eps) : ℝ) : EReal) := by
  rw [Read.val_main_v24_apply, Read.val_main_v23_apply]
  have hi : Read.idx_main_v23 (ix4 b k h w) = ix4 b (0 : Fin 1) h w := funext fun a => Fin.ext (by
    match a with | ⟨0, _⟩ => rfl | ⟨1, _⟩ => rfl | ⟨2, _⟩ => rfl | ⟨3, _⟩ => rfl)
  rw [hi, v22_at x1 Y hY, v7_at x1 Y hY, Ideal.hostDivf_def,
    Ideal.div_coe (len_add_eps_ne _), ← EReal.coe_mul, ← div_eq_mul_one_div]

/-- The reshape to [4, 256, 4096] reads position `i` of channel `k` of batch `b` at `(b, k, i / 64, i % 64)`. -/
theorem idx_v16 (b : Fin 4) (k : Fin 256) (i : Fin 4096) :
    Read.idx_main_v16 (ix3 b k i)
      = ix4 b k (⟨i.val / 64, by have := i.isLt; omega⟩ : Fin 64) (⟨i.val % 64, Nat.mod_lt _ (by norm_num)⟩ : Fin 64) := by
  have hb := b.isLt
  have hk := k.isLt
  have hi := i.isLt
  refine funext fun a => Fin.ext ?_
  match a with
  | ⟨0, _⟩ => show ((b.val * 256 + k.val) * 4096 + i.val) / 1048576 = b.val; omega
  | ⟨1, _⟩ => show ((b.val * 256 + k.val) * 4096 + i.val) / 4096 % 256 = k.val; omega
  | ⟨2, _⟩ => show ((b.val * 256 + k.val) * 4096 + i.val) / 64 % 64 = i.val / 64; omega
  | ⟨3, _⟩ => show ((b.val * 256 + k.val) * 4096 + i.val) % 64 = i.val % 64; omega

/-- The second reshape reads the same way. -/
theorem idx_v25 (b : Fin 4) (k : Fin 256) (i : Fin 4096) :
    Read.idx_main_v25 (ix3 b k i)
      = ix4 b k (⟨i.val / 64, by have := i.isLt; omega⟩ : Fin 64) (⟨i.val % 64, Nat.mod_lt _ (by norm_num)⟩ : Fin 64) := by
  have hb := b.isLt
  have hk := k.isLt
  have hi := i.isLt
  refine funext fun a => Fin.ext ?_
  match a with
  | ⟨0, _⟩ => show ((b.val * 256 + k.val) * 4096 + i.val) / 1048576 = b.val; omega
  | ⟨1, _⟩ => show ((b.val * 256 + k.val) * 4096 + i.val) / 4096 % 256 = k.val; omega
  | ⟨2, _⟩ => show ((b.val * 256 + k.val) * 4096 + i.val) / 64 % 64 = i.val / 64; omega
  | ⟨3, _⟩ => show ((b.val * 256 + k.val) * 4096 + i.val) % 64 = i.val % 64; omega

end Entries

/-- The left normalised array at batch `b` and position `i`: 256 reals whose squares sum to at most 1. -/
theorem lhs_unit [Cert.ReferenceIdeal.Facts] (x0 x1 : (⟨S4x256x64x64, .f32⟩ : BufTy).Contents (Elt Ideal))
    (h0 : AllReal x0) (h1 : AllReal x1) (b : Fin 4) (i : Fin 4096) :
    ∃ p : Fin 256 → ℝ, (∀ k : Fin 256, Read.val_main_v16 (F := Ideal) x0 x1 (ix3 b k i) = (p k : EReal))
      ∧ ∑ k, p k ^ 2 ≤ 1 := by
  choose X hX using h0
  choose Y hY using h1
  refine ⟨fun k => dev X Y b ⟨i.val / 64, by have := i.isLt; omega⟩ ⟨i.val % 64, Nat.mod_lt _ (by norm_num)⟩ k
      / (Real.sqrt (∑ j, dev X Y b ⟨i.val / 64, by have := i.isLt; omega⟩ ⟨i.val % 64, Nat.mod_lt _ (by norm_num)⟩ j
          * dev X Y b ⟨i.val / 64, by have := i.isLt; omega⟩ ⟨i.val % 64, Nat.mod_lt _ (by norm_num)⟩ j) + eps),
    fun k => ?_, Cert.RowLaw.normalized_sq_sum_le_one _ eps eps_pos⟩
  rw [Read.val_main_v16_apply, idx_v16, v15_at x0 x1 X Y hX hY]

/-- The right normalised array at batch `b` and position `j`: 256 reals whose squares sum to at most 1. -/
theorem rhs_unit [Cert.ReferenceIdeal.Facts] (x1 : (⟨S4x256x64x64, .f32⟩ : BufTy).Contents (Elt Ideal))
    (h1 : AllReal x1) (b : Fin 4) (j : Fin 4096) :
    ∃ q : Fin 256 → ℝ, (∀ k : Fin 256, Read.val_main_v25 (F := Ideal) x1 (ix3 b k j) = (q k : EReal))
      ∧ ∑ k, q k ^ 2 ≤ 1 := by
  choose Y hY using h1
  refine ⟨fun k => dev Y Y b ⟨j.val / 64, by have := j.isLt; omega⟩ ⟨j.val % 64, Nat.mod_lt _ (by norm_num)⟩ k
      / (Real.sqrt (∑ l, dev Y Y b ⟨j.val / 64, by have := j.isLt; omega⟩ ⟨j.val % 64, Nat.mod_lt _ (by norm_num)⟩ l
          * dev Y Y b ⟨j.val / 64, by have := j.isLt; omega⟩ ⟨j.val % 64, Nat.mod_lt _ (by norm_num)⟩ l) + eps),
    fun k => ?_, Cert.RowLaw.normalized_sq_sum_le_one _ eps eps_pos⟩
  rw [Read.val_main_v25_apply, idx_v25, v24_at x1 Y hY]

end Cert.Prefix

end
-- ==== Proof.LibHostLastMax.lean ====
/-
  The host's largest entry along the last axis of a rank-3 array, read at an index — general in the extents.

  A one-operand reduction with a maximum body along the last axis of an `a × b × c` array reads, at `(p, q)`, the fold
  of `max`, from the initial value, over the entries `(p, q, k)`: over the extended reals `max` is commutative and
  associative, so the order of the fold does not matter.  And taking the maximum of such a fold with its own starting
  value once more changes nothing (a softmax's row maximum is printed that way).
-/
import Idealize.ShloMosaic.Lib.ValueIdx
import Idealize.ShloMosaic.PureOps.Ideal.Laws

noncomputable section

namespace Cert.LibHostLastMax

open Idealize.ShloMosaic Idealize.ShloMosaic.ValueIdx

/-- Over the extended reals the host's reduction by `max` of an `a × b × c` array along its last axis reads, at
    `(p, q)`, the fold of `max` from the initial value over `k` of the entries `(p, q, k)`. -/
theorem hostLastMax_apply {a b c : ℕ} {φ : FTy} {u : Shape} (x : FVec Ideal ⟨3, ![a, b, c]⟩ φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduce FloatOps.maximumf x init h' hu (ix2 p q)
      = (Finset.univ : Finset (Fin c)).fold max (init (Shape.Idx.first hu)) (fun k : Fin c => x (ix3 p q k)) := by
  refine (Host.reduce_eq_fold_single FloatOps.maximumf x init h' h hu (ix2 p q)).trans ?_
  have hf : (x ∘ h.lift (ix2 p q)) = fun k : Fin c => x (ix3 p q k) := funext fun k => congrArg x
    (funext fun d => Fin.ext (by match d with | ⟨0, _⟩ => rfl | ⟨1, _⟩ => rfl | ⟨2, _⟩ => rfl))
  exact congrArg (fun f => Finset.fold max (init (Shape.Idx.first hu)) f (Finset.univ : Finset (Fin c))) hf

/-- The maximum of a fold of `max` with the fold's own starting value is the fold. -/
theorem max_init_fold {ι : Type} (s : Finset ι) (init : EReal) (f : ι → EReal) :
    max init (s.fold max init f) = s.fold max init f :=
  max_eq_right ((Finset.le_fold_max init).mpr (Or.inl le_rfl))

end Cert.LibHostLastMax

end
-- ==== Proof.LibHostLastMin.lean ====
/-
  The host's least entry along the last axis of a rank-3 array, read at an index — general in the extents.

  A one-operand reduction with a minimum body along the last axis of an `a × b × c` array reads, at `(p, q)`, the fold
  of `min`, from the initial value, over the entries `(p, q, k)`: over the extended reals `min` is commutative and
  associative, so the order of the fold does not matter.
-/
import Idealize.ShloMosaic.Lib.ValueIdx
import Idealize.ShloMosaic.PureOps.Ideal.Laws

noncomputable section

namespace Cert.LibHostLastMin

open Idealize.ShloMosaic Idealize.ShloMosaic.ValueIdx

/-- Over the extended reals the host's reduction by `min` of an `a × b × c` array along its last axis reads, at
    `(p, q)`, the fold of `min` from the initial value over `k` of the entries `(p, q, k)`. -/
theorem hostLastMin_apply {a b c : ℕ} {φ : FTy} {u : Shape} (x : FVec Ideal ⟨3, ![a, b, c]⟩ φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduce FloatOps.minimumf x init h' hu (ix2 p q)
      = (Finset.univ : Finset (Fin c)).fold min (init (Shape.Idx.first hu)) (fun k : Fin c => x (ix3 p q k)) := by
  refine (Host.reduce_eq_fold_single FloatOps.minimumf x init h' h hu (ix2 p q)).trans ?_
  have hf : (x ∘ h.lift (ix2 p q)) = fun k : Fin c => x (ix3 p q k) := funext fun k => congrArg x
    (funext fun d => Fin.ext (by match d with | ⟨0, _⟩ => rfl | ⟨1, _⟩ => rfl | ⟨2, _⟩ => rfl))
  exact congrArg (fun f => Finset.fold min (init (Shape.Idx.first hu)) f (Finset.univ : Finset (Fin c))) hf

/-- The host's sum of an `a × b × c` array along its last axis reads, at `(p, q)`, the initial value plus the sum over
    `k` of the entries `(p, q, k)`. -/
theorem hostLastSum_apply {a b c : ℕ} {φ : FTy} {u : Shape} (x : FVec Ideal ⟨3, ![a, b, c]⟩ φ) (init : FVec Ideal u φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduceAdd x init h' hu (ix2 p q) = init (Shape.Idx.first hu) + ∑ k : Fin c, x (ix3 p q k) := by
  simp only [Host.reduceAdd, Ideal.hostReduceAdd_def]
  rw [Ideal.hostReduceAdd_single h' h]
  refine congrArg (_ + ·) (Finset.sum_congr rfl fun k _ => ?_)
  exact congrArg x (funext fun d => Fin.ext (by match d with | ⟨0, _⟩ => rfl | ⟨1, _⟩ => rfl | ⟨2, _⟩ => rfl))

end Cert.LibHostLastMin

end
-- ==== Proof.RefRows.lean ====
/-
  The reference's value before its final averages, one row at a time.

  At batch b and query position i the similarities are s_j = ∑ₖ L[b,k,i] · R[b,k,j] over the 256 channels, for the two
  normalised arrays L and R.  The reference subtracts each from 1, takes the least of the differences over j, adds 0.001,
  divides each difference by that, subtracts the quotient from 1, divides by 0.1, exponentiates, divides each weight by the
  sum over j of the weights, and takes the largest quotient over j: `RowLaw.refRow` of the row s.
-/
import proofs.«120261_j39960375722308_2_alg».proof.Proof.Gen.ReferenceIdeal.Read
import proofs.«120261_j39960375722308_2_alg».proof.Proof.RowLaw
import proofs.«120261_j39960375722308_2_alg».proof.Proof.Consts
import proofs.«120261_j39960375722308_2_alg».proof.Proof.LibHostLastMax
import proofs.«120261_j39960375722308_2_alg».proof.Proof.LibHostLastMin
import Idealize.ShloMosaic.Lib.ValueIdx
import Idealize.ShloMosaic.Lib.Pipeline.Value

noncomputable section

open scoped BigOperators

namespace Cert.RefRows

open Idealize.ShloMosaic Idealize.ShloMosaic.ValueIdx Cert.ReferenceIdeal Cert.ReferenceIdeal.Gen Cert.ReferenceIdeal.Read

variable [Cert.ReferenceIdeal.Facts]
variable (x0 x1 : (⟨S4x256x64x64, .f32⟩ : BufTy).Contents (Elt Ideal))

/-- The similarity of query position `i` and key position `j` in batch `b`: the sum over the channels of the products of
    the two normalised arrays' entries. -/
def sim (b : Fin 4) (i j : Fin 4096) : EReal :=
  ∑ k : Fin 256, val_main_v16 (F := Ideal) x0 x1 (ix3 b k i) * val_main_v25 (F := Ideal) x1 (ix3 b k j)

/-- The product of the two arrays over the channel axis, batch by batch, at (b, i, j). -/
theorem v26_at (b : Fin 4) (i j : Fin 4096) : val_main_v26 (F := Ideal) x0 x1 (ix3 b i j) = sim x0 x1 b i j := by
  rw [val_main_v26_apply]
  refine Finset.sum_congr rfl fun k _ => ?_
  have el : lidx_main_v26 (ix3 b i j) k = ix3 b k i :=
    funext fun a => Fin.ext (by match a with | ⟨0, _⟩ => rfl | ⟨1, _⟩ => rfl | ⟨2, _⟩ => rfl)
  have er : ridx_main_v26 (ix3 b i j) k = ix3 b k j :=
    funext fun a => Fin.ext (by match a with | ⟨0, _⟩ => rfl | ⟨1, _⟩ => rfl | ⟨2, _⟩ => rfl)
  rw [el, er]

/-- The distance 1 - s at (b, i, j). -/
theorem v28_at (b : Fin 4) (i j : Fin 4096) :
    val_main_v28 (F := Ideal) x0 x1 (ix3 b i j) = Ideal.ofBits .f32 0x3F800000#32 - sim x0 x1 b i j := by
  rw [val_main_v28_apply, val_main_v27_apply, val_main_cst_5_apply, v26_at]
  rfl

/-- The least distance of row (b, i). -/
theorem v29_at (b : Fin 4) (i : Fin 4096) :
    val_main_v29 (F := Ideal) x0 x1 (ix2 b i)
      = (Finset.univ : Finset (Fin 4096)).fold min (Ideal.ofBits .f32 0x7F800000#32)
          (fun j => Ideal.ofBits .f32 0x3F800000#32 - sim x0 x1 b i j) := by
  unfold val_main_v29
  refine (Cert.LibHostLastMin.hostLastMin_apply (a := 4) (b := 4096) (c := 4096) _ _
    reducesTo_S4x4096x4096_S4x4096_d2 (by decide) h_S_ b i).trans ?_
  refine congrArg₂ (fun z f => Finset.fold min z f (Finset.univ : Finset (Fin 4096))) rfl ?_
  exact funext fun j => v28_at x0 x1 b i j

/-- The divisor of row (b, i): its least distance plus 0.001. -/
theorem v32_at (b : Fin 4) (i : Fin 4096) (z : Fin 1) :
    val_main_v32 (F := Ideal) x0 x1 (ix3 b i z)
      = (Finset.univ : Finset (Fin 4096)).fold min (Ideal.ofBits .f32 0x7F800000#32)
          (fun j => Ideal.ofBits .f32 0x3F800000#32 - sim x0 x1 b i j) + Ideal.ofBits .f32 0x3A83126F#32 := by
  rw [val_main_v32_apply, val_main_v30_apply, val_main_v31_apply, val_main_cst_7_apply]
  have e : idx_main_v30 (ix3 b i z) = ix2 b i :=
    funext fun a => Fin.ext (by match a with | ⟨0, _⟩ => rfl | ⟨1, _⟩ => rfl)
  rw [e, v29_at]
  rfl

/-- The weight of (b, i, j). -/
theorem v39_at (b : Fin 4) (i j : Fin 4096) :
    val_main_v39 (F := Ideal) x0 x1 (ix3 b i j)
      = Ideal.exp (Ideal.div (Ideal.ofBits .f32 0x3F800000#32 - Ideal.div (Ideal.ofBits .f32 0x3F800000#32 - sim x0 x1 b i j)
          ((Finset.univ : Finset (Fin 4096)).fold min (Ideal.ofBits .f32 0x7F800000#32)
            (fun j' => Ideal.ofBits .f32 0x3F800000#32 - sim x0 x1 b i j') + Ideal.ofBits .f32 0x3A83126F#32))
          (Ideal.ofBits .f32 0x3DCCCCCD#32)) := by
  rw [val_main_v39_apply, val_main_v38_apply, val_main_v37_apply, val_main_cst_9_apply, val_main_v36_apply,
    val_main_v35_apply, val_main_cst_8_apply, val_main_v34_apply, val_main_v33_apply, v28_at]
  have e : idx_main_v33 (ix3 b i j) = ix3 b i (0 : Fin 1) :=
    funext fun a => Fin.ext (by match a with | ⟨0, _⟩ => rfl | ⟨1, _⟩ => rfl | ⟨2, _⟩ => rfl)
  rw [e, v32_at]
  rfl

/-- The sum of the weights of row (b, i). -/
theorem v40_at (b : Fin 4) (i : Fin 4096) :
    val_main_v40 (F := Ideal) x0 x1 (ix2 b i)
      = Ideal.ofBits .f32 0x00000000#32 + ∑ j : Fin 4096, val_main_v39 (F := Ideal) x0 x1 (ix3 b i j) := by
  rw [val_main_v40_apply]
  refine congrArg₂ (· + ·) rfl (Finset.sum_congr rfl fun j _ => ?_)
  exact congrArg _ (funext fun a => Fin.ext (by match a with | ⟨0, _⟩ => rfl | ⟨1, _⟩ => rfl | ⟨2, _⟩ => rfl))

/-- The normalised weight of (b, i, j). -/
theorem v43_at (b : Fin 4) (i j : Fin 4096) :
    val_main_v43 (F := Ideal) x0 x1 (ix3 b i j)
      = Ideal.div (val_main_v39 (F := Ideal) x0 x1 (ix3 b i j))
          (Ideal.ofBits .f32 0x00000000#32 + ∑ j' : Fin 4096, val_main_v39 (F := Ideal) x0 x1 (ix3 b i j')) := by
  rw [val_main_v43_apply, val_main_v42_apply, val_main_v41_apply]
  have e : idx_main_v41 (idx_main_v42 (ix3 b i j)) = ix2 b i :=
    funext fun a => Fin.ext (by match a with | ⟨0, _⟩ => rfl | ⟨1, _⟩ => rfl)
  rw [e, v40_at]
  rfl

/-- Row (b, i) of the reference's array of largest normalised weights is `refRow` of the row of similarities. -/
theorem v44_at (b : Fin 4) (i : Fin 4096) :
    val_main_v44 (F := Ideal) x0 x1 (ix2 b i)
      = Cert.RowLaw.refRow (Ideal.ofBits .f32 0x3F800000#32) (Ideal.ofBits .f32 0x3A83126F#32)
          (Ideal.ofBits .f32 0x3DCCCCCD#32) (fun j => sim x0 x1 b i j) := by
  unfold val_main_v44
  refine (Cert.LibHostLastMax.hostLastMax_apply (a := 4) (b := 4096) (c := 4096) _ _
    reducesTo_S4x4096x4096_S4x4096_d2 (by decide) h_S_ b i).trans ?_
  unfold Cert.RowLaw.refRow
  have hb : val_main_cst_11 (F := Ideal) (Shape.Idx.first h_S_) = ⊥ := Cert.Consts.ofBits_negInf
  rw [hb]
  refine congrArg (fun f => Finset.fold max ⊥ f (Finset.univ : Finset (Fin 4096))) (funext fun j => ?_)
  rw [v43_at]
  simp only [v39_at, Cert.Consts.ofBits_zero, Cert.Consts.ofBits_posInf]

end Cert.RefRows

end
-- ==== Proof.Bridge.lean ====
/-
  The two rows agree, and the reference's last operations as one function.

  For finite inputs the two normalised arrays hold reals whose squares over the channels sum to at most 1, so every
  similarity is a real at most 1 and the law of one row applies: the reference's row value equals the kernel's, the kernel's
  scale constant being exactly the reciprocal of the reference's single-precision 0.1.  After the rows both programs average
  over the positions, take minus the logarithm and average over the batches: one function `tail` of the [4, 4096] array.
-/
import proofs.«120261_j39960375722308_2_alg».proof.Proof.Gen.ReferenceIdeal.Read
import proofs.«120261_j39960375722308_2_alg».proof.Proof.RowLaw
import proofs.«120261_j39960375722308_2_alg».proof.Proof.Consts
import proofs.«120261_j39960375722308_2_alg».proof.Proof.Prefix
import proofs.«120261_j39960375722308_2_alg».proof.Proof.RefRows

noncomputable section

open scoped BigOperators

namespace Cert.Bridge

open Idealize.ShloMosaic Idealize.ShloMosaic.ValueIdx Cert.ReferenceIdeal Cert.ReferenceIdeal.Gen Cert.ReferenceIdeal.Read

/-- The operations after the rows: the mean over the 4096 positions, minus its logarithm, the mean over the 4 batches. -/
def tail (z : FVec Ideal S4x4096 .f32) : FVec Ideal S_ .f32 :=
  Host.divf (F := Ideal)
    (Host.reduceAdd (F := Ideal)
      (Host.negf (F := Ideal) (Host.log (F := Ideal) (Host.divf (F := Ideal)
        (Host.reduceAdd (F := Ideal) z (val_main_cst_12 (F := Ideal)) reducesTo_S4x4096_S4_d1 h_S_)
        (val_main_v46 (F := Ideal)))))
      (val_main_cst_14 (F := Ideal)) reducesTo_S4_S_d0 h_S_)
    (val_main_cst_15 (F := Ideal))

/-- The reference's result is `tail` of its array of row values. -/
theorem ref_tail (x0 x1 : (⟨S4x256x64x64, .f32⟩ : BufTy).Contents (Elt Ideal)) :
    val_main_v51 (F := Ideal) x0 x1 = tail (val_main_v44 (F := Ideal) x0 x1) := rfl

/-- For finite inputs the reference's and the kernel's values of row (b, i) of similarities agree. -/
theorem rows_agree (x0 x1 : (⟨S4x256x64x64, .f32⟩ : BufTy).Contents (Elt Ideal))
    (h0 : Cert.Prefix.AllReal x0) (h1 : Cert.Prefix.AllReal x1) (b : Fin 4) (i : Fin 4096) :
    Cert.RowLaw.refRow (Ideal.ofBits .f32 0x3F800000#32) (Ideal.ofBits .f32 0x3A83126F#32)
        (Ideal.ofBits .f32 0x3DCCCCCD#32) (fun j => Cert.RefRows.sim x0 x1 b i j)
      = Cert.RowLaw.kerRow (Ideal.ofBits .f32 0x3F800000#32) (Ideal.ofBits .f32 0x3A83126F#32)
          ((134217728 / 13421773 : ℝ) : EReal) (fun j => Cert.RefRows.sim x0 x1 b i j) := by
  obtain ⟨p, hp, hpn⟩ := Cert.Prefix.lhs_unit x0 x1 h0 h1 b i
  choose q hq hqn using fun j => Cert.Prefix.rhs_unit x1 h1 b j
  have hs : (fun j => Cert.RefRows.sim x0 x1 b i j) = fun j => ((∑ k, p k * q j k : ℝ) : EReal) := funext fun j => by
    unfold Cert.RefRows.sim
    rw [Cert.RowLaw.coe_sum]
    refine Finset.sum_congr rfl fun k _ => ?_
    rw [hp k, hq j k, EReal.coe_mul]
  have hK : ((134217728 / 13421773 : ℝ) : EReal) = ((1 / (13421773 / 134217728 : ℝ) : ℝ) : EReal) := by norm_num
  rw [hs, Cert.Consts.ofBits_one, Cert.Consts.ofBits_milli, Cert.Consts.ofBits_tenth, hK]
  exact Cert.RowLaw.row_law (by norm_num) _ (fun j => Cert.RowLaw.dot_le_one p (q j) hpn (hqn j)) _ _
    (by norm_num) (by norm_num)

end Cert.Bridge

end
-- ==== Proof.KerValue.lean ====
/-
  What the kernel's result array holds after the run.

  The grid has 4 × 16 points; point (b, t) loads rows 256·t … 256·t + 255 of batch b of the query array, all 4096 rows of
  batch b of the key array, and writes rows 256·t … 256·t + 255 of batch b of the [4, 4096, 1] result.  Every index of the
  result lies in exactly the block of the point (b, i / 256), so the array ends holding, at (b, i, 0), `kerRow` of the row of
  similarities ∑ₖ Q[b,i,k] · K[b,j,k].
-/
import proofs.«120261_j39960375722308_2_alg».proof.Proof.Gen.KernelIdeal.Frame
import proofs.«120261_j39960375722308_2_alg».proof.Proof.KerRows
import proofs.«120261_j39960375722308_2_alg».proof.Proof.Bridge
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KerValue

open Cert.KernelIdeal Cert.KernelIdeal.Gen

variable (m : (ℓ : Loc nD τ sig) → Buf (Elt Ideal) ℓ) (ρ : Dev nD → PrngReg)

theorem hz : (![0, 0, 0] : Fin 3 → Nat) = fun _ => 0 := funext fun a => by fin_cases a <;> rfl

/-- The result array as a function of the query array `a` and the key array `b`. -/
def outFn (a b : S4x4096x256.Idx → EReal) : S4x4096x1.Idx → EReal := fun i =>
  Cert.RowLaw.kerRow (Ideal.ofBits .f32 0x3F800000#32) (Ideal.ofBits .f32 0x3A83126F#32)
    ((134217728 / 13421773 : ℝ) : EReal)
    (fun j => ∑ k : Fin 256, a (ix3 (⟨(i 0).val, (i 0).isLt⟩ : Fin 4) (⟨(i 1).val, (i 1).isLt⟩ : Fin 4096) k)
      * b (ix3 (⟨(i 0).val, (i 0).isLt⟩ : Fin 4) j k))

/-- The printed index maps, decided over the grid: the query block moves with the result block, the key block with its batch. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (2 : Fin 3) = 0 ∧ win0_2.index t (0 : Fin 3) ≤ 3 ∧ win0_2.index t (1 : Fin 3) ≤ 15 :=
  (by decide +kernel : ∀ t : Fin grid0.N, _)

/-- Every (batch, row block) is some point's. -/
theorem idx_onto : ∀ (q0 : Fin 4) (q1 : Fin 16), ∃ t : Fin cfg0.N, win0_2.index t = ![q0.val, q1.val, 0] :=
  (by decide +kernel : ∀ (q0 : Fin 4) (q1 : Fin 16), ∃ t : Fin grid0.N, win0_2.index t = ![q0.val, q1.val, 0])

/-- An entry of the query window's block at point `t`, read off any array `A`, is `A`'s entry at the block's offset. -/
theorem read_blk0 (c : Dev nD) (A : Buf (Elt Ideal) ((cfg0.win 0).arr.view.loc (c.tc : Thread nD τ))) (t : Fin cfg0.N)
    (x : S1x256x256.Idx) (q : S4x4096x256.Idx)
    (h0 : (q 0).val = win0_0.index t (0 : Fin 3) * 1 + (x 0).val) (h1 : (q 1).val = win0_0.index t (1 : Fin 3) * 256 + (x 1).val)
    (h2 : (q 2).val = win0_0.index t (2 : Fin 3) * 256 + (x 2).val) :
    (((cfg0.win 0).blk t).view.read (Elt Ideal) A : Vec Ideal S1x256x256 .bf16) x = (A : S4x4096x256.Idx → Elt Ideal .bf16) q := by
  rw [View.read_apply]
  refine congrArg A (funext fun a => Fin.ext ?_)
  match a with
  | ⟨0, _⟩ => show win0_0.index t (0 : Fin 3) * 1 + 1 * (x 0).val = (q 0).val; omega
  | ⟨1, _⟩ => show win0_0.index t (1 : Fin 3) * 256 + 1 * (x 1).val = (q 1).val; omega
  | ⟨2, _⟩ => show win0_0.index t (2 : Fin 3) * 256 + 1 * (x 2).val = (q 2).val; omega

/-- An entry of the key window's block at point `t`, read off any array `A`, is `A`'s entry at the block's offset. -/
theorem read_blk1 (c : Dev nD) (A : Buf (Elt Ideal) ((cfg0.win 1).arr.view.loc (c.tc : Thread nD τ))) (t : Fin cfg0.N)
    (x : S1x4096x256.Idx) (q : S4x4096x256.Idx)
    (h0 : (q 0).val = win0_1.index t (0 : Fin 3) * 1 + (x 0).val) (h1 : (q 1).val = win0_1.index t (1 : Fin 3) * 4096 + (x 1).val)
    (h2 : (q 2).val = win0_1.index t (2 : Fin 3) * 256 + (x 2).val) :
    (((cfg0.win 1).blk t).view.read (Elt Ideal) A : Vec Ideal S1x4096x256 .bf16) x = (A : S4x4096x256.Idx → Elt Ideal .bf16) q := by
  rw [View.read_apply]
  refine congrArg A (funext fun a => Fin.ext ?_)
  match a with
  | ⟨0, _⟩ => show win0_1.index t (0 : Fin 3) * 1 + 1 * (x 0).val = (q 0).val; omega
  | ⟨1, _⟩ => show win0_1.index t (1 : Fin 3) * 4096 + 1 * (x 1).val = (q 1).val; omega
  | ⟨2, _⟩ => show win0_1.index t (2 : Fin 3) * 256 + 1 * (x 2).val = (q 2).val; omega

/-- What the body leaves for the result window at point `t`, from blocks read off any two arrays, is block `t` of `outFn`. -/
theorem block_eq (c : Dev nD) (A0 : Buf (Elt Ideal) ((cfg0.win 0).arr.view.loc (c.tc : Thread nD τ)))
    (A1 : Buf (Elt Ideal) ((cfg0.win 1).arr.view.loc (c.tc : Thread nD τ))) (t : Fin cfg0.N) :
    (cfg0.win 2).cut (grid0.coords t)
        (out0_2 (((cfg0.win 0).blk t).view.read (Elt Ideal) A0) (((cfg0.win 1).blk t).view.read (Elt Ideal) A1))
      = ((cfg0.win 2).blk t).view.read (Elt Ideal) (outFn A0 A1) := by
  unfold out0_2
  rw [View.canon_unit_zero hz]
  simp only [View.ld_unit_zero (S := S1x256x256) hz, View.ld_unit_zero (S := S1x4096x256) hz]
  obtain ⟨e0, e1, e2, e3, e4, e5, e6, e7, e8⟩ := idx_facts t
  funext y
  have hy0 : (y 0).val < 1 := (y 0).isLt
  have hy1 : (y 1).val < 256 := (y 1).isLt
  have hy2 : (y 2).val < 1 := (y 2).isLt
  obtain ⟨r, rfl⟩ : ∃ r : Fin 256, y = ix3 (0 : Fin 1) r (0 : Fin 1) :=
    ⟨⟨(y 1).val, hy1⟩, funext fun a => Fin.ext (by
      match a with
      | ⟨0, _⟩ => show (y 0).val = 0; omega
      | ⟨1, _⟩ => rfl
      | ⟨2, _⟩ => show (y 2).val = 0; omega)⟩
  rw [View.read_apply]
  show k0_pay1 (((cfg0.win 0).blk t).view.read (Elt Ideal) A0) (((cfg0.win 1).blk t).view.read (Elt Ideal) A1)
    (ix3 (0 : Fin 1) r (0 : Fin 1)) = outFn A0 A1 _
  refine (Cert.KerRows.pay_row (((cfg0.win 0).blk t).view.read (Elt Ideal) A0)
    (((cfg0.win 1).blk t).view.read (Elt Ideal) A1) r).trans ?_
  unfold outFn
  refine congrArg _ (funext fun j => Finset.sum_congr rfl fun k _ => ?_)
  refine congrArg₂ (· * ·) (read_blk0 c A0 t (ix3 (0 : Fin 1) r k) _ ?_ ?_ ?_) (read_blk1 c A1 t (ix3 (0 : Fin 1) j k) _ ?_ ?_ ?_)
  · show win0_2.index t (0 : Fin 3) * 1 + 1 * 0 = win0_0.index t (0 : Fin 3) * 1 + 0; omega
  · show win0_2.index t (1 : Fin 3) * 256 + 1 * r.val = win0_0.index t (1 : Fin 3) * 256 + r.val; omega
  · show k.val = win0_0.index t (2 : Fin 3) * 256 + k.val; omega
  · show win0_2.index t (0 : Fin 3) * 1 + 1 * 0 = win0_1.index t (0 : Fin 3) * 1 + 0; omega
  · show j.val = win0_1.index t (1 : Fin 3) * 4096 + j.val; omega
  · show k.val = win0_1.index t (2 : Fin 3) * 256 + k.val; omega

/-- What point `t` writes back is block `t` of `outFn` of the two arrays as the region finds them. -/
theorem flushed_eq (c : Dev nD) (t : Fin cfg0.N) :
    (dats m 0 c).flushed 2 t = ((cfg0.win 2).blk t).view.read (Elt Ideal)
      (outFn (V m c (Pipeline.arrRef spec0 0)) (V m c (Pipeline.arrRef spec0 1))) := by
  show (cfg0.win 2).cut (grid0.coords t) ((dats m 0 c).after 2 t) = _
  rw [after0_2]
  exact block_eq c (V m c (Pipeline.arrRef spec0 0)) (V m c (Pipeline.arrRef spec0 1)) t

/-- An index of the result array is in point `t`'s block iff each coordinate is in the block's range on its axis. -/
theorem mem_blk (t : Fin cfg0.N) (i : S4x4096x1.Idx) :
    i ∈ ((cfg0.win 2).blk t).view.set ↔ ∀ a : Fin 3, win0_2.index t a * S1x256x1.size a ≤ (i a).val
      ∧ (i a).val < win0_2.index t a * S1x256x1.size a + S1x256x1.size a := by
  show i ∈ ((View.whole main_v30).slice (win0_2.rect t)).set ↔ _
  rw [View.set_slice_whole, Rect.mem_set_unit]
  exact Iff.rfl

/-- Every index of the result array is in the block of the point of its batch and its row's block of 256. -/
theorem cover (i : S4x4096x1.Idx) :
    ∃ t : Fin cfg0.N, (cfg0.win 2).flush t = true ∧ i ∈ ((cfg0.win 2).blk t).view.set := by
  have h0 : (i 0).val < 4 := (i 0).isLt
  have h1 : (i 1).val < 4096 := (i 1).isLt
  have h2 : (i 2).val < 1 := (i 2).isLt
  obtain ⟨t, ht⟩ := idx_onto ⟨(i 0).val, h0⟩ ⟨(i 1).val / 256, by omega⟩
  have q0 : win0_2.index t (0 : Fin 3) = (i 0).val := congrFun ht 0
  have q1 : win0_2.index t (1 : Fin 3) = (i 1).val / 256 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 1 ≤ (i 2).val ∧ (i 2).val < win0_2.index t (2 : Fin 3) * 1 + 1; omega

/-- The result array after the run is `outFn` of the two arrays as the region finds them. -/
theorem final (c : Dev nD) : (dats m 0 c).arrAt 2 cfg0.N
    = outFn (V m c (Pipeline.arrRef spec0 0)) (V m c (Pipeline.arrRef spec0 1)) :=
  (dats m 0 c).arrAt_eq_of_cover 2 (outFn (V m c (Pipeline.arrRef spec0 0)) (V m c (Pipeline.arrRef spec0 1)))
    (fun t _ => flushed_eq m c t) cover

set_option maxHeartbeats 4000000 in
/-- The program's result: the operations after the region are `tail` of the result array recast to [4, 4096]. -/
theorem tail_eq (c : Dev nD) :
    (Pipeline.afterTail₀ cfgs (dats m) 0 (V0 m) [hostOps1] c main_v38 : S_.Idx → EReal)
      = Cert.Bridge.tail (shapeCast S4x4096 ((dats m 0 c).arrAt 2 cfg0.N : S4x4096x1.Idx → EReal) shapeCasts_S4x4096x1_S4x4096) := by
  unfold Pipeline.afterTail₀
  show StableHlo.after hostOps1 _ (Proc.devRef .tc main_v38) = _
  after_results_simp
  have e : Pipeline.withArrays (cfgs 0).spec c (V0 m c) (fun w => (dats m 0 c).arrAt w (cfgs 0).N) (Proc.devRef .tc main_v30)
      = (dats m 0 c).arrAt 2 cfg0.N := Pipeline.withArrays_arr spec0 launch0.win.arr_inj c _ _ 2
  rw [e]
  rfl

end Cert.KerValue

end
-- ==== Proof.KerPrefix.lean ====
/-
  The two arrays the kernel's region reads, in terms of the reference's two normalised arrays.

  Before the region the kernel's program performs the same operations as the reference up to the two normalised arrays L
  and R of shape [4, 256, 4096], then exchanges their last two axes and changes the number format, which over the extended
  reals changes nothing: the query array holds L[b, k, i] at (b, i, k) and the key array R[b, k, j] at (b, j, k).
-/
import proofs.«120261_j39960375722308_2_alg».proof.Proof.Gen.KernelIdeal.Frame
import proofs.«120261_j39960375722308_2_alg».proof.Proof.Gen.ReferenceIdeal.Read
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.TcCoe Idealize.SL.Sem Idealize.ShloMosaic.ValueIdx Idealize.ShloMosaic.StableHlo

namespace Cert.KerPrefix

open Cert.KernelIdeal Cert.KernelIdeal.Gen

variable (m : (ℓ : Loc nD τ sig) → Buf (Elt Ideal) ℓ)

set_option maxHeartbeats 4000000 in
/-- The query array as the region finds it: the left normalised array with its last two axes exchanged. -/
theorem v27_eq (c : Dev nD) :
    (V m c main_v27 : S4x4096x256.Idx → EReal)
      = truncf (F := Ideal) .bf16 (transpose S4x4096x256 [0, 2, 1]
          (Cert.ReferenceIdeal.Read.val_main_v16 (F := Ideal) (m ((c : Thread nD τ).loc main_arg0)) (m ((c : Thread nD τ).loc main_arg1)))
          transposes_S4x256x4096_S4x4096x256_0_2_1) bitsLt_bf16_f32 := by
  show StableHlo.after hostOps0 (fun b => m (c, b)) (Proc.devRef .tc main_v27) = _
  after_results_simp
  rfl

set_option maxHeartbeats 4000000 in
/-- The key array as the region finds it: the right normalised array with its last two axes exchanged. -/
theorem v29_eq (c : Dev nD) :
    (V m c main_v29 : S4x4096x256.Idx → EReal)
      = truncf (F := Ideal) .bf16 (transpose S4x4096x256 [0, 2, 1]
          (Cert.ReferenceIdeal.Read.val_main_v25 (F := Ideal) (m ((c : Thread nD τ).loc main_arg1)))
          transposes_S4x256x4096_S4x4096x256_0_2_1) bitsLt_bf16_f32 := by
  show StableHlo.after hostOps0 (fun b => m (c, b)) (Proc.devRef .tc main_v29) = _
  after_results_simp
  rfl

/-- The query array at (b, i, k) is the left normalised array at (b, k, i). -/
theorem v27_at (c : Dev nD) (b : Fin 4) (i : Fin 4096) (k : Fin 256) :
    (V m c main_v27 : S4x4096x256.Idx → EReal) (ix3 b i k)
      = Cert.ReferenceIdeal.Read.val_main_v16 (F := Ideal) (m ((c : Thread nD τ).loc main_arg0))
          (m ((c : Thread nD τ).loc main_arg1)) (ix3 b k i) := by
  refine (congrFun (v27_eq m c) (ix3 b i k)).trans ?_
  refine (truncf_apply _ bitsLt_bf16_f32 (ix3 b i k)).trans ?_
  exact transpose_apply [0, 2, 1] _ transposes_S4x256x4096_S4x4096x256_0_2_1 (ix3 b i k) (ix3 b k i)
    (fun a => by match a with | ⟨0, _⟩ => rfl | ⟨1, _⟩ => rfl | ⟨2, _⟩ => rfl)

/-- The key array at (b, j, k) is the right normalised array at (b, k, j). -/
theorem v29_at (c : Dev nD) (b : Fin 4) (j : Fin 4096) (k : Fin 256) :
    (V m c main_v29 : S4x4096x256.Idx → EReal) (ix3 b j k)
      = Cert.ReferenceIdeal.Read.val_main_v25 (F := Ideal) (m ((c : Thread nD τ).loc main_arg1)) (ix3 b k j) := by
  refine (congrFun (v29_eq m c) (ix3 b j k)).trans ?_
  refine (truncf_apply _ bitsLt_bf16_f32 (ix3 b j k)).trans ?_
  exact transpose_apply [0, 2, 1] _ transposes_S4x256x4096_S4x4096x256_0_2_1 (ix3 b j k) (ix3 b k j)
    (fun a => by match a with | ⟨0, _⟩ => rfl | ⟨1, _⟩ => rfl | ⟨2, _⟩ => rfl)

end Cert.KerPrefix

end
-- ==== Proof.KerResult.lean ====
/-
  The kernel's result array is the reference's array of row values.

  Recast to [4, 4096] the kernel's result array holds at (b, i) the kernel's value of the row of similarities of query
  position i of batch b; the query and key arrays hold the two normalised arrays with their last axes exchanged, so that row
  is the reference's row of similarities, and for finite inputs the two values of one row agree.
-/
import proofs.«120261_j39960375722308_2_alg».proof.Proof.KerValue
import proofs.«120261_j39960375722308_2_alg».proof.Proof.KerPrefix
import proofs.«120261_j39960375722308_2_alg».proof.Proof.Bridge
import proofs.«120261_j39960375722308_2_alg».proof.Proof.RefRows
import proofs.«120261_j39960375722308_2_alg».proof.Proof.Prefix

set_option maxRecDepth 16384

noncomputable section

open scoped BigOperators
open Idealize.ShloMosaic Idealize.ShloMosaic.TcCoe Idealize.SL.Sem Idealize.ShloMosaic.ValueIdx

namespace Cert.KerResult

open Cert.KernelIdeal Cert.KernelIdeal.Gen

variable (m : (ℓ : Loc nD τ sig) → Buf (Elt Ideal) ℓ)

/-- For finite inputs the kernel's result array, recast to [4, 4096], is the reference's array of row values. -/
theorem rows_eq (c : Dev nD)
    (h0 : Cert.Prefix.AllReal (m ((c : Thread nD τ).loc main_arg0) : S4x256x64x64.Idx → EReal))
    (h1 : Cert.Prefix.AllReal (m ((c : Thread nD τ).loc main_arg1) : S4x256x64x64.Idx → EReal)) :
    shapeCast S4x4096 ((dats m 0 c).arrAt 2 cfg0.N : S4x4096x1.Idx → EReal) shapeCasts_S4x4096x1_S4x4096
      = Cert.ReferenceIdeal.Read.val_main_v44 (F := Ideal) (m ((c : Thread nD τ).loc main_arg0))
          (m ((c : Thread nD τ).loc main_arg1)) := by
  funext idx
  obtain ⟨b, i, rfl⟩ : ∃ (b : Fin 4) (i : Fin 4096), idx = ix2 b i := ⟨idx 0, idx 1, eq_ix2 idx⟩
  rw [shapeCast_apply _ shapeCasts_S4x4096x1_S4x4096 (ix2 b i) (ix3 b i (0 : Fin 1)) (by
    rw [Shape.rowMajor_val_three, Shape.rowMajor_val_two]
    show (b.val * 4096 + i.val) * 1 + 0 = b.val * 4096 + i.val
    omega)]
  rw [Cert.KerValue.final]
  refine Eq.trans ?_ ((Cert.RefRows.v44_at _ _ b i).trans (Cert.Bridge.rows_agree _ _ h0 h1 b i)).symm
  show Cert.RowLaw.kerRow _ _ _ _ = Cert.RowLaw.kerRow _ _ _ _
  refine congrArg _ (funext fun j => Finset.sum_congr rfl fun k _ => ?_)
  exact congrArg₂ (· * ·) (Cert.KerPrefix.v27_at m c b i k) (Cert.KerPrefix.v29_at m c b j k)

/-- For finite inputs the kernel's program ends with `tail` of the reference's array of row values. -/
theorem result_eq (c : Dev nD)
    (h0 : Cert.Prefix.AllReal (m ((c : Thread nD τ).loc main_arg0) : S4x256x64x64.Idx → EReal))
    (h1 : Cert.Prefix.AllReal (m ((c : Thread nD τ).loc main_arg1) : S4x256x64x64.Idx → EReal)) :
    (Pipeline.afterTail₀ cfgs (dats m) 0 (V0 m) [hostOps1] c main_v38 : S_.Idx → EReal)
      = Cert.Bridge.tail (Cert.ReferenceIdeal.Read.val_main_v44 (F := Ideal) (m ((c : Thread nD τ).loc main_arg0))
          (m ((c : Thread nD τ).loc main_arg1))) :=
  (Cert.KerValue.tail_eq m c).trans (congrArg Cert.Bridge.tail (rows_eq m c h0 h1))

end Cert.KerResult

end
-- ==== Proof.lean ====
/-
  The certificate of a contextual-similarity loss: a tiled kernel against its plain reference, equal over the extended reals.

  Both programs centre two [4, 256, 64, 64] feature arrays by the channel mean of the second, divide each position's 256
  channel entries by (their Euclidean length + 2⁻⁵²), and form, batch by batch, the 4096 × 4096 similarities s_ij of query
  position i and key position j.  The reference turns row i into distances 1 - s_ij, divides them by (their least value +
  0.001), forms the weights exp((1 - quotient) / 0.1), and takes the largest weight over the sum of the weights.  The kernel,
  one block of 256 query rows at a time, subtracts the row's largest similarity, multiplies by 10 / ((1 - largest) + 0.001),
  exponentiates, and divides the largest weight by the sum.  The two weights of one row differ by a positive factor that is
  the same for every key, which cancels in the quotient — provided the kernel's constant 10 is read as what its source spells,
  the reciprocal of the reference's single-precision 0.1, and provided the divisor (1 - largest) + 0.001 is not zero, which
  holds because a similarity of two families whose squares sum to at most 1 is at most 1.  Both programs then average the
  row values over the positions, take minus the logarithm and average over the batches.

  The modules: RowLaw (the law of one row and the two bounds, over the reals), Prefix (the normalised arrays hold reals
  with squares summing to at most 1, and the precondition decoded), RefRows (the reference's row values), KerRows (the
  kernel body's stored row values), KerValue (the kernel's result array from its blocks, and the operations after the
  region), KerPrefix (the kernel's two window arrays are the normalised arrays with their last axes exchanged), Bridge and
  KerResult (the two sides joined).
-/
import proofs.«120261_j39960375722308_2_alg».proof.Defs
import proofs.«120261_j39960375722308_2_alg».proof.Proof.Gen.Kernel
import proofs.«120261_j39960375722308_2_alg».proof.Proof.Gen.Kernel.Skeleton
import proofs.«120261_j39960375722308_2_alg».proof.Proof.Gen.Kernel.Launch
import proofs.«120261_j39960375722308_2_alg».proof.Proof.Gen.Kernel.Points
import proofs.«120261_j39960375722308_2_alg».proof.Proof.Gen.Kernel.Frame
import proofs.«120261_j39960375722308_2_alg».proof.Proof.Gen.KernelIdeal
import proofs.«120261_j39960375722308_2_alg».proof.Proof.Gen.KernelIdeal.Skeleton
import proofs.«120261_j39960375722308_2_alg».proof.Proof.Gen.KernelIdeal.Launch
import proofs.«120261_j39960375722308_2_alg».proof.Proof.Gen.KernelIdeal.Points
import proofs.«120261_j39960375722308_2_alg».proof.Proof.Gen.KernelIdeal.Frame
import proofs.«120261_j39960375722308_2_alg».proof.Proof.Gen.ReferenceIdeal
import proofs.«120261_j39960375722308_2_alg».proof.Proof.Gen.Pre_finite_inputs
import proofs.«120261_j39960375722308_2_alg».proof.Proof.Gen.ReferenceIdeal.Run
import proofs.«120261_j39960375722308_2_alg».proof.Proof.Gen.ReferenceIdeal.Read
import proofs.«120261_j39960375722308_2_alg».proof.Proof.KerResult
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The one rewrite of the idealization: the kernel's constant 10.0 is named the reciprocal of the single-precision 0.1,
    134217728 / 13421773, and the printed constant denotes that value over the extended reals. -/
theorem preserves : Cert.preserves_Kernel_KernelIdeal :=
  IdealRules.named_const.statement Cert.KernelIdeal.κ "inv_h_bw" .f32 0x41200000#32
    ((134217728 / 13421773 : ℝ) : EReal) rfl

/-- From memories agreeing on the two finite input arrays both programs end at `tail` of the reference's array of row
    values: the kernel by its result array read block by block and the law of one row, the reference by its run. -/
theorem algebraic : Cert.algebraic_KernelIdeal_ReferenceIdeal := by
  intro m ρ m' ρ' hpre hagree
  refine ⟨fun c => Cert.Bridge.tail (Cert.ReferenceIdeal.Read.val_main_v44 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))), ?_, ?_⟩
  · refine (θ_run Cert.KernelIdeal.defs _ _).mono (fun r h c => ?_) (Cert.KernelIdeal.Gen.run_main m ρ)
    obtain ⟨h0, h1⟩ := Cert.Prefix.allReal_of_pre _ _ (hpre c)
    exact ⟨((h c).2 Cert.KernelIdeal.main_v38 (Pipeline.mem_restRefs_of Cert.KernelIdeal.main_v38 (by decide) (by decide))).trans
        (Cert.KerResult.result_eq m c h0 h1),
      ((h c).2 Cert.KernelIdeal.main_arg0 (Pipeline.mem_restRefs_of Cert.KernelIdeal.main_arg0 (by decide) (by decide))).trans
        (Cert.KernelIdeal.Gen.W_main_arg0 m (Cert.KernelIdeal.Gen.dats m) c),
      ((h c).2 Cert.KernelIdeal.main_arg1 (Pipeline.mem_restRefs_of Cert.KernelIdeal.main_arg1 (by decide) (by decide))).trans
        (Cert.KernelIdeal.Gen.W_main_arg1 m (Cert.KernelIdeal.Gen.dats m) c)⟩
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v51_eq, Cert.Bridge.ref_tail, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
